-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x512 : Shape := ⟨2, ![8192, 512]⟩
abbrev S256x512 : Shape := ⟨2, ![256, 512]⟩
abbrev S512x512 : Shape := ⟨2, ![512, 512]⟩
abbrev S512 : Shape := ⟨1, ![512]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part7 {F : FTy → Type} [FloatOps F] (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  main_v123

def fn_part6 {F : FTy → Type} [FloatOps F] (main_arg21 : FVec F S256x512 .f32) (main_arg22 : FVec F S512x512 .f32) (main_arg23 : FVec F S512x512 .f32) (main_arg24 : FVec F S512 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S256x512 .f32 := Host.absf main_arg21
  let main_cst_40 : FVec F S_ .f32 := constant S_ .f32 0x7F800000#32
  let main_v105 : FVec F S256x512 .f32 := broadcastInDim S256x512 ![] bcast_S_S256x512 main_cst_40
  let main_v106 : IVec S256x512 1 := cmpf .olt main_v104 main_v105
  let main_c_41 : IVec S_ 1 := constantI S_ 1 1#1
  let main_v107 : IVec S_ 1 := (fun x v => Host.reduce IntOp.andi x v reducesTo_S256x512_S_d0_1 h_S_) main_v106 main_c_41
  let main_v108 : IVec S_ 1 := andi main_v103 main_v107
  let main_v109 : FVec F S512x512 .f32 := Host.absf main_arg22
  let main_cst_42 : FVec F S_ .f32 := constant S_ .f32 0x7F800000#32
  let main_v110 : FVec F S512x512 .f32 := broadcastInDim S512x512 ![] bcast_S_S512x512 main_cst_42
  let main_v111 : IVec S512x512 1 := cmpf .olt main_v109 main_v110
  let main_c_43 : IVec S_ 1 := constantI S_ 1 1#1
  let main_v112 : IVec S_ 1 := (fun x v => Host.reduce IntOp.andi x v reducesTo_S512x512_S_d0_1 h_S_) main_v111 main_c_43
  let main_v113 : IVec S_ 1 := andi main_v108 main_v112
  let main_v114 : FVec F S512x512 .f32 := Host.absf main_arg23
  let main_cst_44 : FVec F S_ .f32 := constant S_ .f32 0x7F800000#32
  let main_v115 : FVec F S512x512 .f32 := broadcastInDim S512x512 ![] bcast_S_S512x512 main_cst_44
  let main_v116 : IVec S512x512 1 := cmpf .olt main_v114 main_v115
  let main_c_45 : IVec S_ 1 := constantI S_ 1 1#1
  let main_v117 : IVec S_ 1 := (fun x v => Host.reduce IntOp.andi x v reducesTo_S512x512_S_d0_1 h_S_) main_v116 main_c_45
  let main_v118 : IVec S_ 1 := andi main_v113 main_v117
  let main_v119 : FVec F S512 .f32 := Host.absf main_arg24
  fn_part7 (F := F) main_v118 main_v119

def fn_part5 {F : FTy → Type} [FloatOps F] (main_arg18 : FVec F S512x512 .f32) (main_arg19 : FVec F S512x512 .f32) (main_arg20 : FVec F S512 .f32) (main_arg21 : FVec F S256x512 .f32) (main_arg22 : FVec F S512x512 .f32) (main_arg23 : FVec F S512x512 .f32) (main_arg24 : FVec F S512 .f32) (main_v83 : IVec S_ 1) (main_v84 : FVec F S256x512 .f32) (main_cst_32 : FVec F S_ .f32) : IVec S_ 1 :=
  let main_v85 : FVec F S256x512 .f32 := broadcastInDim S256x512 ![] bcast_S_S256x512 main_cst_32
  let main_v86 : IVec S256x512 1 := cmpf .olt main_v84 main_v85
  let main_c_33 : IVec S_ 1 := constantI S_ 1 1#1
  let main_v87 : IVec S_ 1 := (fun x v => Host.reduce IntOp.andi x v reducesTo_S256x512_S_d0_1 h_S_) main_v86 main_c_33
  let main_v88 : IVec S_ 1 := andi main_v83 main_v87
  let main_v89 : FVec F S512x512 .f32 := Host.absf main_arg18
  let main_cst_34 : FVec F S_ .f32 := constant S_ .f32 0x7F800000#32
  let main_v90 : FVec F S512x512 .f32 := broadcastInDim S512x512 ![] bcast_S_S512x512 main_cst_34
  let main_v91 : IVec S512x512 1 := cmpf .olt main_v89 main_v90
  let main_c_35 : IVec S_ 1 := constantI S_ 1 1#1
  let main_v92 : IVec S_ 1 := (fun x v => Host.reduce IntOp.andi x v reducesTo_S512x512_S_d0_1 h_S_) main_v91 main_c_35
  let main_v93 : IVec S_ 1 := andi main_v88 main_v92
  let main_v94 : FVec F S512x512 .f32 := Host.absf main_arg19
  let main_cst_36 : FVec F S_ .f32 := constant S_ .f32 0x7F800000#32
  let main_v95 : FVec F S512x512 .f32 := broadcastInDim S512x512 ![] bcast_S_S512x512 main_cst_36
  let main_v96 : IVec S512x512 1 := cmpf .olt main_v94 main_v95
  let main_c_37 : IVec S_ 1 := constantI S_ 1 1#1
  let main_v97 : IVec S_ 1 := (fun x v => Host.reduce IntOp.andi x v reducesTo_S512x512_S_d0_1 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S512x512 .f32) (main_arg15 : FVec F S512x512 .f32) (main_arg16 : FVec F S512 .f32) (main_arg17 : FVec F S256x512 .f32) (main_arg18 : FVec F S512x512 .f32) (main_arg19 : FVec F S512x512 .f32) (main_arg20 : FVec F S512 .f32) (main_arg21 : FVec F S256x512 .f32) (main_arg22 : FVec F S512x512 .f32) (main_arg23 : FVec F S512x512 .f32) (main_arg24 : FVec F S512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S256x512 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S512x512 .f32) (main_arg12 : FVec F S512 .f32) (main_arg13 : FVec F S256x512 .f32) (main_arg14 : FVec F S512x512 .f32) (main_arg15 : FVec F S512x512 .f32) (main_arg16 : FVec F S512 .f32) (main_arg17 : FVec F S256x512 .f32) (main_arg18 : FVec F S512x512 .f32) (main_arg19 : FVec F S512x512 .f32) (main_arg20 : FVec F S512 .f32) (main_arg21 : FVec F S256x512 .f32) (main_arg22 : FVec F S512x512 .f32) (main_arg23 : FVec F S512x512 .f32) (main_arg24 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S256x512 .f32 := Host.absf main_arg13
  let main_cst_24 : FVec F S_ .f32 := constant S_ .f32 0x7F800000#32
  let main_v65 : FVec F S256x512 .f32 := broadcastInDim S256x512 ![] bcast_S_S256x512 main_cst_24
  let main_v66 : IVec S256x512 1 := cmpf .olt main_v64 main_v65
  let main_c_25 : IVec S_ 1 := constantI S_ 1 1#1
  let main_v67 : IVec S_ 1 := (fun x v => Host.reduce IntOp.andi x v reducesTo_S256x512_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S512x512 .f32) (main_arg8 : FVec F S512 .f32) (main_arg9 : FVec F S256x512 .f32) (main_arg10 : FVec F S512x512 .f32) (main_arg11 : FVec F S512x512 .f32) (main_arg12 : FVec F S512 .f32) (main_arg13 : FVec F S256x512 .f32) (main_arg14 : FVec F S512x512 .f32) (main_arg15 : FVec F S512x512 .f32) (main_arg16 : FVec F S512 .f32) (main_arg17 : FVec F S256x512 .f32) (main_arg18 : FVec F S512x512 .f32) (main_arg19 : FVec F S512x512 .f32) (main_arg20 : FVec F S512 .f32) (main_arg21 : FVec F S256x512 .f32) (main_arg22 : FVec F S512x512 .f32) (main_arg23 : FVec F S512x512 .f32) (main_arg24 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S8192x512 .f32) (main_arg5 : FVec F S256x512 .f32) (main_arg6 : FVec F S512x512 .f32) (main_arg7 : FVec F S512x512 .f32) (main_arg8 : FVec F S512 .f32) (main_arg9 : FVec F S256x512 .f32) (main_arg10 : FVec F S512x512 .f32) (main_arg11 : FVec F S512x512 .f32) (main_arg12 : FVec F S512 .f32) (main_arg13 : FVec F S256x512 .f32) (main_arg14 : FVec F S512x512 .f32) (main_arg15 : FVec F S512x512 .f32) (main_arg16 : FVec F S512 .f32) (main_arg17 : FVec F S256x512 .f32) (main_arg18 : FVec F S512x512 .f32) (main_arg19 : FVec F S512x512 .f32) (main_arg20 : FVec F S512 .f32) (main_arg21 : FVec F S256x512 .f32) (main_arg22 : FVec F S512x512 .f32) (main_arg23 : FVec F S512x512 .f32) (main_arg24 : FVec F S512 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8192x256 .f32) (main_arg1 : FVec F S8192x512 .f32) (main_arg2 : FVec F S8192x512 .f32) (main_arg3 : FVec F S8192x512 .f32) (main_arg4 : FVec F S8192x512 .f32) (main_arg5 : FVec F S256x512 .f32) (main_arg6 : FVec F S512x512 .f32) (main_arg7 : FVec F S512x512 .f32) (main_arg8 : FVec F S512 .f32) (main_arg9 : FVec F S256x512 .f32) (main_arg10 : FVec F S512x512 .f32) (main_arg11 : FVec F S512x512 .f32) (main_arg12 : FVec F S512 .f32) (main_arg13 : FVec F S256x512 .f32) (main_arg14 : FVec F S512x512 .f32) (main_arg15 : FVec F S512x512 .f32) (main_arg16 : FVec F S512 .f32) (main_arg17 : FVec F S256x512 .f32) (main_arg18 : FVec F S512x512 .f32) (main_arg19 : FVec F S512x512 .f32) (main_arg20 : FVec F S512 .f32) (main_arg21 : FVec F S256x512 .f32) (main_arg22 : FVec F S512x512 .f32) (main_arg23 : FVec F S512x512 .f32) (main_arg24 : FVec F S512 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8192x256 : Shape := ⟨2, ![8192, 256]⟩
abbrev S8192x512 : Shape := ⟨2, ![8192, 512]⟩
abbrev S256x512 : Shape := ⟨2, ![256, 512]⟩
abbrev S512x512 : Shape := ⟨2, ![512, 512]⟩
abbrev S512 : Shape := ⟨1, ![512]⟩
abbrev S256x2560 : Shape := ⟨2, ![256, 2560]⟩
abbrev S512x2560 : Shape := ⟨2, ![512, 2560]⟩
abbrev S2560 : Shape := ⟨1, ![2560]⟩
abbrev S1x2560 : Shape := ⟨2, ![1, 2560]⟩
abbrev S1024x256 : Shape := ⟨2, ![1024, 256]⟩
abbrev S1024x512 : Shape := ⟨2, ![1024, 512]⟩
abbrev S1024x2560 : Shape := ⟨2, ![1024, 2560]⟩

abbrev nBuf : Space → Nat
  | .hbm => 38
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S256x512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S256x512, .f32⟩
  | .hbm, ⟨10, _⟩ => ⟨S512x512, .f32⟩
  | .hbm, ⟨11, _⟩ => ⟨S512x512, .f32⟩
  | .hbm, ⟨12, _⟩ => ⟨S512, .f32⟩
  | .hbm, ⟨13, _⟩ => ⟨S256x512, .f32⟩
  | .hbm, ⟨14, _⟩ => ⟨S512x512, .f32⟩
  | .hbm, ⟨15, _⟩ => ⟨S512x512, .f32⟩
  | .hbm, ⟨16, _⟩ => ⟨S512, .f32⟩
  | .hbm, ⟨17, _⟩ => ⟨S256x512, .f32⟩
  | .hbm, ⟨18, _⟩ => ⟨S512x512, .f32⟩
  | .hbm, ⟨19, _⟩ => ⟨S512x512, .f32⟩
  | .hbm, ⟨20, _⟩ => ⟨S512, .f32⟩
  | .hbm, ⟨21, _⟩ => ⟨S256x512, .f32⟩
  | .hbm, ⟨22, _⟩ => ⟨S512x512, .f32⟩
  | .hbm, ⟨23, _⟩ => ⟨S512x512, .f32⟩
  | .hbm, ⟨24, _⟩ => ⟨S512, .f32⟩
  | .hbm, ⟨25, _⟩ => ⟨S256x2560, .f32⟩
  | .hbm, ⟨26, _⟩ => ⟨S256x2560, .bf16⟩
  | .hbm, ⟨27, _⟩ => ⟨S512x2560, .f32⟩
  | .hbm, ⟨28, _⟩ => ⟨S512x2560, .bf16⟩
  | .hbm, ⟨29, _⟩ => ⟨S512x2560, .f32⟩
  | .hbm, ⟨30, _⟩ => ⟨S512x2560, .bf16⟩
  | .hbm, ⟨31, _⟩ => ⟨S2560, .f32⟩
  | .hbm, ⟨32, _⟩ => ⟨S1x2560, .f32⟩
  | .hbm, ⟨33, _⟩ => ⟨S8192x256, .bf16⟩
  | .hbm, ⟨34, _⟩ => ⟨S8192x512, .bf16⟩
  | .hbm, ⟨35, _⟩ => ⟨S8192x512, .bf16⟩
  | .hbm, ⟨36, _⟩ => ⟨S8192x512, .f32⟩
  | .hbm, ⟨37, _⟩ => ⟨S8192x512, .f32⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S256x2560, .bf16⟩
  | .local _ .vmem, ⟨11, _⟩ => ⟨S512x2560, .bf16⟩
  | .local _ .vmem, ⟨12, _⟩ => ⟨S512x2560, .bf16⟩
  | .local _ .vmem, ⟨13, _⟩ => ⟨S1x2560, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11_0 : Ref sig .tc := ⟨.hbm, 36, rfl⟩
abbrev main_v11_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S256x512_S256x512_S256x512_S256x512_S256x512_S256x2560_d1 : Shape.Concatenates [S256x512, S256x512, S256x512, S256x512, S256x512] S256x2560 1
  bitsLt_bf16_f32 : FTy.bits .bf16 < FTy.bits .f32
  concatenates_S512x512_S512x512_S512x512_S512x512_S512x512_S512x2560_d1 : Shape.Concatenates [S512x512, S512x512, S512x512, S512x512, S512x512] S512x2560 1
  concatenates_S512_S512_S512_S512_S512_S2560_d0 : Shape.Concatenates [S512, S512, S512, S512, S512] S2560 0
  shapeCasts_S2560_S1x2560 : S2560.ShapeCasts S1x2560
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S256x2560_S256x2560_0_0 : ∀ a, (![0, 0] : Fin 2 → Nat) a + S256x2560.size a ≤ S256x2560.size a
  h_S256x2560 : 0 < S256x2560.numel
  shapeCasts_S256x2560_S256x2560 : S256x2560.ShapeCasts S256x2560
  inb_S512x2560_S512x2560_0_0 : ∀ a, (![0, 0] : Fin 2 → Nat) a + S512x2560.size a ≤ S512x2560.size a
  h_S512x2560 : 0 < S512x2560.numel
  shapeCasts_S512x2560_S512x2560 : S512x2560.ShapeCasts S512x2560
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S1024x2560 : S1x2560.Broadcasts S1024x2560
  slices_S1024x2560_o0_0_S1024x512 : S1024x2560.Slices ![0, 0] S1024x512
  slices_S1024x2560_o0_512_S1024x512 : S1024x2560.Slices ![0, 512] S1024x512
  slices_S1024x2560_o0_1024_S1024x512 : S1024x2560.Slices ![0, 1024] S1024x512
  slices_S1024x2560_o0_1536_S1024x512 : S1024x2560.Slices ![0, 1536] S1024x512
  slices_S1024x2560_o0_2048_S1024x512 : S1024x2560.Slices ![0, 2048] S1024x512
  dot_S1024x256_S256x2560_S1024x2560_1_0_0_1_n_n_wf : DotDims.WF S1024x256 S256x2560 S1024x2560 [1] [0] [0] [1] [] []
  dot_S1024x512_S512x2560_S1024x2560_1_0_0_1_n_n_wf : DotDims.WF S1024x512 S512x2560 S1024x2560 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .f32 = 32 ∨ (Rect.block (s := S8192x512) S1024x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2560.size a ≤ S256x2560.size a
  hwx0_5 : ∀ i : grid0.Coords, EltTy.bits .bf16 = 32 ∨ (Rect.block (s := S256x2560) S256x2560.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2560.size a ≤ S512x2560.size a
  hwx0_6 : ∀ i : grid0.Coords, EltTy.bits .bf16 = 32 ∨ (Rect.block (s := S512x2560) S512x2560.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2560.size a ≤ S512x2560.size a
  hwx0_7 : ∀ i : grid0.Coords, EltTy.bits .bf16 = 32 ∨ (Rect.block (s := S512x2560) S512x2560.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2560.size a ≤ S1x2560.size a
  hwx0_8 : ∀ i : grid0.Coords, EltTy.bits .f32 = 32 ∨ (Rect.block (s := S1x2560) S1x2560.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S8192x512.size a
  hwx0_9 : ∀ i : grid0.Coords, EltTy.bits .f32 = 32 ∨ (Rect.block (s := S8192x512) S1024x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S8192x512.size a
  hwx0_10 : ∀ i : grid0.Coords, EltTy.bits .f32 = 32 ∨ (Rect.block (s := S8192x512) S1024x512.size (cc0_transform_10 i) (hinb0_10 i)).WholeWords (EltTy.packing .f32)

variable [Facts₀]

def dot_S1024x256_S256x2560_S1024x2560_1_0_0_1_n_n : DotDims S1024x256 S256x2560 S1024x2560 where
  lhsContracting := [1]
  rhsContracting := [0]
  lhsNonContracting := [0]
  rhsNonContracting := [1]
  lhsBatch := []
  rhsBatch := []
  wf := dot_S1024x256_S256x2560_S1024x2560_1_0_0_1_n_n_wf
def dot_S1024x512_S512x2560_S1024x2560_1_0_0_1_n_n : DotDims S1024x512 S512x2560 S1024x2560 where
  lhsContracting := [1]
  rhsContracting := [0]
  lhsNonContracting := [0]
  rhsNonContracting := [1]
  lhsBatch := []
  rhsBatch := []
  wf := dot_S1024x512_S512x2560_S1024x2560_1_0_0_1_n_n_wf

abbrev win0_0 : Pipeline.Window sig grid0 :=
  Pipeline.Window.ofSpec (Memref.whole main_v8) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x2560.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x2560.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x2560.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x2560.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11_0) S1024x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_1) S1024x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x512 : Shape := ⟨2, ![8192, 512]⟩
abbrev S256x512 : Shape := ⟨2, ![256, 512]⟩
abbrev S512x512 : Shape := ⟨2, ![512, 512]⟩
abbrev S512 : Shape := ⟨1, ![512]⟩
abbrev S256x2560 : Shape := ⟨2, ![256, 2560]⟩
abbrev S512x2560 : Shape := ⟨2, ![512, 2560]⟩
abbrev S2560 : Shape := ⟨1, ![2560]⟩
abbrev S8192x2560 : Shape := ⟨2, ![8192, 2560]⟩
abbrev S1x2560 : Shape := ⟨2, ![1, 2560]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S256x512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S256x512, .f32⟩
  | .hbm, ⟨10, _⟩ => ⟨S512x512, .f32⟩
  | .hbm, ⟨11, _⟩ => ⟨S512x512, .f32⟩
  | .hbm, ⟨12, _⟩ => ⟨S512, .f32⟩
  | .hbm, ⟨13, _⟩ => ⟨S256x512, .f32⟩
  | .hbm, ⟨14, _⟩ => ⟨S512x512, .f32⟩
  | .hbm, ⟨15, _⟩ => ⟨S512x512, .f32⟩
  | .hbm, ⟨16, _⟩ => ⟨S512, .f32⟩
  | .hbm, ⟨17, _⟩ => ⟨S256x512, .f32⟩
  | .hbm, ⟨18, _⟩ => ⟨S512x512, .f32⟩
  | .hbm, ⟨19, _⟩ => ⟨S512x512, .f32⟩
  | .hbm, ⟨20, _⟩ => ⟨S512, .f32⟩
  | .hbm, ⟨21, _⟩ => ⟨S256x512, .f32⟩
  | .hbm, ⟨22, _⟩ => ⟨S512x512, .f32⟩
  | .hbm, ⟨23, _⟩ => ⟨S512x512, .f32⟩
  | .hbm, ⟨24, _⟩ => ⟨S512, .f32⟩
  | .hbm, ⟨25, _⟩ => ⟨S256x2560, .f32⟩
  | .hbm, ⟨26, _⟩ => ⟨S512x2560, .f32⟩
  | .hbm, ⟨27, _⟩ => ⟨S512x2560, .f32⟩
  | .hbm, ⟨28, _⟩ => ⟨S2560, .f32⟩
  | .hbm, ⟨29, _⟩ => ⟨S8192x2560, .f32⟩
  | .hbm, ⟨30, _⟩ => ⟨S8192x2560, .f32⟩
  | .hbm, ⟨31, _⟩ => ⟨S8192x2560, .f32⟩
  | .hbm, ⟨32, _⟩ => ⟨S8192x2560, .f32⟩
  | .hbm, ⟨33, _⟩ => ⟨S8192x2560, .f32⟩
  | .hbm, ⟨34, _⟩ => ⟨S1x2560, .f32⟩
  | .hbm, ⟨35, _⟩ => ⟨S8192x2560, .f32⟩
  | .hbm, ⟨36, _⟩ => ⟨S8192x2560, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S_, .f32⟩
  | .hbm, ⟨69, _⟩ => ⟨S8192x512, .f32⟩
  | .hbm, ⟨70, _⟩ => ⟨S8192x512, .f32⟩
  | .hbm, ⟨71, _⟩ => ⟨S_, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_v20 : Ref sig .tc := ⟨.hbm, 46, rfl⟩
abbrev main_cst_0 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_1 : Ref sig .tc := ⟨.hbm, 52, rfl⟩
abbrev main_v25 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_3 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_5 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩

abbrev nD : Nat := 1
abbrev τ : Topo := Topo.v7x

variable {F : FTy → Type} [FloatOps F]

class Facts₀ : Prop where
  concatenates_S256x512_S256x512_S256x512_S256x512_S256x512_S256x2560_d1 : Shape.Concatenates [S256x512, S256x512, S256x512, S256x512, S256x512] S256x2560 1
  concatenates_S512x512_S512x512_S512x512_S512x512_S512x512_S512x2560_d1 : Shape.Concatenates [S512x512, S512x512, S512x512, S512x512, S512x512] S512x2560 1
  concatenates_S512_S512_S512_S512_S512_S2560_d0 : Shape.Concatenates [S512, S512, S512, S512, S512] S2560 0
  bcast_S2560_S1x2560_1 : S2560.BroadcastsInDim S1x2560 (![1] : Fin 1 → Fin S1x2560.rank)
  bcast_S1x2560_S8192x2560_0_1 : S1x2560.BroadcastsInDim S8192x2560 (![0, 1] : Fin 2 → Fin S8192x2560.rank)
  slices_S8192x2560_S8192x512_0_0 : S8192x2560.Slices ![0, 0] S8192x512
  slices_S8192x2560_S8192x512_0_512 : S8192x2560.Slices ![0, 512] S8192x512
  slices_S8192x2560_S8192x512_0_1024 : S8192x2560.Slices ![0, 1024] S8192x512
  slices_S8192x2560_S8192x512_0_1536 : S8192x2560.Slices ![0, 1536] S8192x512
  slices_S8192x2560_S8192x512_0_2048 : S8192x2560.Slices ![0, 2048] S8192x512
  bcast_S_S8192x512 : S_.BroadcastsInDim S8192x512 (![] : Fin 0 → Fin S8192x512.rank)
  dot_S8192x256_S256x2560_S8192x2560_1_0_0_1_n_n_wf : DotDims.WF S8192x256 S256x2560 S8192x2560 [1] [0] [0] [1] [] []
  dot_S8192x512_S512x2560_S8192x2560_1_0_0_1_n_n_wf : DotDims.WF S8192x512 S512x2560 S8192x2560 [1] [0] [0] [1] [] []

variable [Facts₀]

def dot_S8192x256_S256x2560_S8192x2560_1_0_0_1_n_n : DotDims S8192x256 S256x2560 S8192x2560 where
  lhsContracting := [1]
  rhsContracting := [0]
  lhsNonContracting := [0]
  rhsNonContracting := [1]
  lhsBatch := []
  rhsBatch := []
  wf := dot_S8192x256_S256x2560_S8192x2560_1_0_0_1_n_n_wf
def dot_S8192x512_S512x2560_S8192x2560_1_0_0_1_n_n : DotDims S8192x512 S512x2560 S8192x2560 where
  lhsContracting := [1]
  rhsContracting := [0]
  lhsNonContracting := [0]
  rhsNonContracting := [1]
  lhsBatch := []
  rhsBatch := []
  wf := dot_S8192x512_S512x2560_S8192x2560_1_0_0_1_n_n_wf

class Facts : Prop extends Facts₀ where

variable [Facts]
-- ==== Proof.CellRunBits.lean ====
/-
  The fused LSTM cell, as a run. Each of the eight grid points takes a block of 1024 batch rows of x, h_t, h_s, c_t, c_s
  together with the three concatenated weight matrices and the concatenated bias (the same whole arrays at every point),
  forms the 1024 × 2560 gate pre-activations  x·U + h_t·W_t + h_s·W_s + b,  cuts them into the five 512-column gates, and
  stores  c' = σ(g_i)·tanh(g_c) + σ(g_ft)·c_t + σ(g_fs)·c_s  and  h' = σ(g_o)·tanh(c')  over the whole of its two output blocks.
  This module says that such a run terminates without a fault, leaves every argument array as it found it, and leaves in
  each output array, block by block, what the body stored: the body's two stores are whole-block stores of a pure function
  of the nine input blocks, the input blocks are where the pipeline put them (fetched at this point or kept from the
  previous one), and the host lines before the region write none of the arguments. Nothing here depends on how floats
  are read, so the same text serves the word-level program and the program over the extended reals.
-/
import proofs.«138706_j21534966022556_2_alg».proof.Proof.Gen.Kernel.Launch
import proofs.«138706_j21534966022556_2_alg».proof.Proof.Gen.Kernel.Skeleton
import proofs.«138706_j21534966022556_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers after the eleven host lines (four concatenations, a reshape, six changes of format). -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is those host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-! Every host line writes a buffer of its own, never an argument: the region finds each argument as launched. -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))

/-! ## A window's block at a point -/

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point: fetched there, or, for the weights and the bias,
    kept from the first point on, their block index never moving. -/

theorem held_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem held_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem held_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem held_of_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- In a final state where every array of the pipeline is what the proof data says and every other buffer is what the
    region found, the arguments are unchanged (c_t and c_s are staged inputs, read only; the others are no window's array). -/
theorem kept_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  ⟨((h c).2 main_arg0 (Pipeline.mem_restRefs_of main_arg0 (by decide) (by decide))).trans (V_arg0 m c),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).1 3).trans (((dats 0 c).arrAt_in 3 rfl _).trans ((hA c 3).trans (V_arg3 m c))),
      ((h c).1 4).trans (((dats 0 c).arrAt_in 4 rfl _).trans ((hA c 4).trans (V_arg4 m c))),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c),
      ((h c).2 main_arg12 (Pipeline.mem_restRefs_of main_arg12 (by decide) (by decide))).trans (V_arg12 m c),
      ((h c).2 main_arg13 (Pipeline.mem_restRefs_of main_arg13 (by decide) (by decide))).trans (V_arg13 m c),
      ((h c).2 main_arg14 (Pipeline.mem_restRefs_of main_arg14 (by decide) (by decide))).trans (V_arg14 m c),
      ((h c).2 main_arg15 (Pipeline.mem_restRefs_of main_arg15 (by decide) (by decide))).trans (V_arg15 m c),
      ((h c).2 main_arg16 (Pipeline.mem_restRefs_of main_arg16 (by decide) (by decide))).trans (V_arg16 m c),
      ((h c).2 main_arg17 (Pipeline.mem_restRefs_of main_arg17 (by decide) (by decide))).trans (V_arg17 m c),
      ((h c).2 main_arg18 (Pipeline.mem_restRefs_of main_arg18 (by decide) (by decide))).trans (V_arg18 m c),
      ((h c).2 main_arg19 (Pipeline.mem_restRefs_of main_arg19 (by decide) (by decide))).trans (V_arg19 m c),
      ((h c).2 main_arg20 (Pipeline.mem_restRefs_of main_arg20 (by decide) (by decide))).trans (V_arg20 m c),
      ((h c).2 main_arg21 (Pipeline.mem_restRefs_of main_arg21 (by decide) (by decide))).trans (V_arg21 m c),
      ((h c).2 main_arg22 (Pipeline.mem_restRefs_of main_arg22 (by decide) (by decide))).trans (V_arg22 m c),
      ((h c).2 main_arg23 (Pipeline.mem_restRefs_of main_arg23 (by decide) (by decide))).trans (V_arg23 m c),
      ((h c).2 main_arg24 (Pipeline.mem_restRefs_of main_arg24 (by decide) (by decide))).trans (V_arg24 m c)⟩

/-- The same of a run. -/
theorem kept_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => kept_post m dats hA r h c) h

/-! ## What the body stores -/

abbrev rX : Rect S1024x256 := Rect.unit (s := S1024x256) ![0, 0] S1024x256.size inb_S1024x256_S1024x256_0_0
abbrev rH : Rect S1024x512 := Rect.unit (s := S1024x512) ![0, 0] S1024x512.size inb_S1024x512_S1024x512_0_0
abbrev rU : Rect S256x2560 := Rect.unit (s := S256x2560) ![0, 0] S256x2560.size inb_S256x2560_S256x2560_0_0
abbrev rW : Rect S512x2560 := Rect.unit (s := S512x2560) ![0, 0] S512x2560.size inb_S512x2560_S512x2560_0_0
abbrev rB : Rect S1x2560 := Rect.unit (s := S1x2560) ![0, 0] S1x2560.size inb_S1x2560_S1x2560_0_0

/-- The new cell state of a block: the body's one store into the second output, over the nine input blocks. -/
def cellBlock (x0 : Vec F S1024x256 .bf16) (x1 : Vec F S1024x512 .bf16) (x2 : Vec F S1024x512 .bf16) (x3 : Vec F S1024x512 .f32) (x4 : Vec F S1024x512 .f32) (x5 : Vec F S256x2560 .bf16) (x6 : Vec F S512x2560 .bf16) (x7 : Vec F S512x2560 .bf16) (x8 : Vec F S1x2560 .f32) : Vec F S1024x512 .f32 :=
  View.canon [⟨rH, k0_pay4 (View.ld x0 rX) (View.ld x1 rH) (View.ld x2 rH) (View.ld x5 rU) (View.ld x6 rW) (View.ld x7 rW) (View.ld x8 rB) (View.ld x3 rH) (View.ld x4 rH)⟩]

/-- The new hidden state of a block: the output gate times tanh of the new cell state, the one store into the first output. -/
def hiddenBlock (x0 : Vec F S1024x256 .bf16) (x1 : Vec F S1024x512 .bf16) (x2 : Vec F S1024x512 .bf16) (x3 : Vec F S1024x512 .f32) (x4 : Vec F S1024x512 .f32) (x5 : Vec F S256x2560 .bf16) (x6 : Vec F S512x2560 .bf16) (x7 : Vec F S512x2560 .bf16) (x8 : Vec F S1x2560 .f32) : Vec F S1024x512 .f32 :=
  View.canon [⟨rH, k0_pay1 (k0_pay3 (View.ld x0 rX) (View.ld x1 rH) (View.ld x2 rH) (View.ld x5 rU) (View.ld x6 rW) (View.ld x7 rW) (View.ld x8 rB))
    (k0_pay4 (View.ld x0 rX) (View.ld x1 rH) (View.ld x2 rH) (View.ld x5 rU) (View.ld x6 rW) (View.ld x7 rW) (View.ld x8 rB) (View.ld x3 rH) (View.ld x4 rH))⟩]

/-- One store over the whole block covers it. -/
theorem whole_cover (p0 : Vec F S1024x512 .f32) (y : S1024x512.Idx) :
    ∃ pc ∈ ([⟨rH, p0⟩] : List (View.Piece (Elt F) S1024x512 .f32)), y ∈ pc.1.set :=
  View.cover_of_tiled [⟨rH, p0⟩] S1024x512.size (by rfl) y

/-! ## The body's triple -/

set_option maxHeartbeats 4000000 in
/-- On whole buffers, the nine inputs at contents `x0 … x8` and the two outputs at anything, the body runs to the end,
    leaves the inputs as they were and the outputs at `hiddenBlock` and `cellBlock` of the inputs. -/
theorem body_runs (c : Dev nD) (E : Set ℕ) (i : grid0.Coords) (a0 : Memref sig .tc .vmem S1024x256 .bf16) (h0 : a0.IsWhole) (a1 : Memref sig .tc .vmem S1024x512 .bf16) (h1 : a1.IsWhole) (a2 : Memref sig .tc .vmem S1024x512 .bf16) (h2 : a2.IsWhole) (a3 : Memref sig .tc .vmem S1024x512 .f32) (h3 : a3.IsWhole) (a4 : Memref sig .tc .vmem S1024x512 .f32) (h4 : a4.IsWhole) (a5 : Memref sig .tc .vmem S256x2560 .bf16) (h5 : a5.IsWhole) (a6 : Memref sig .tc .vmem S512x2560 .bf16) (h6 : a6.IsWhole) (a7 : Memref sig .tc .vmem S512x2560 .bf16) (h7 : a7.IsWhole) (a8 : Memref sig .tc .vmem S1x2560 .f32) (h8 : a8.IsWhole) (a9 : Memref sig .tc .vmem S1024x512 .f32) (h9 : a9.IsWhole) (a10 : Memref sig .tc .vmem S1024x512 .f32) (h10 : a10.IsWhole)
    (x0 : Vec F S1024x256 .bf16) (x1 : Vec F S1024x512 .bf16) (x2 : Vec F S1024x512 .bf16) (x3 : Vec F S1024x512 .f32) (x4 : Vec F S1024x512 .f32) (x5 : Vec F S256x2560 .bf16) (x6 : Vec F S512x2560 .bf16) (x7 : Vec F S512x2560 .bf16) (x8 : Vec F S1x2560 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (hiddenBlock x0 x1 x2 x3 x4 x5 x6 x7 x8) ∗ owns (c : Thread nD τ) a10 fullShare (cellBlock x0 x1 x2 x3 x4 x5 x6 x7 x8)) -∗ K ⟨⟩))
      ⊢ wp frame (wpE (defs₀ (F := F)) Variants.none c none) E (cc0__st_lstm_kernel i a0 h0 a1 h1 a2 h2 a3 h3 a4 h4 a5 h5 a6 h6 a7 h7 a8 h8 a9 h9 a10 h10) K := by
  simp only [cc0__st_lstm_kernel_eq_skeleton]; unfold cc0__st_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (whole_cover _)
  iexists _; isplitr
  swap; · iexact H10
  ipureintro
  try dsimp only
  exact View.read_writes_eq_canon _ _ _ (whole_cover _)

/-! ## The pipeline's proof data -/

/-- After the body at point `t`: each input buffer still at its block, the outputs at the two stored blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => hiddenBlock (iblk m c 0 t) (iblk m c 1 t) (iblk m c 2 t) (iblk m c 3 t) (iblk m c 4 t) (iblk m c 5 t) (iblk m c 6 t) (iblk m c 7 t) (iblk m c 8 t)
    | ⟨10, _⟩ => cellBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = hiddenBlock (iblk m c 0 t) (iblk m c 1 t) (iblk m c 2 t) (iblk m c 3 t) (iblk m c 4 t) (iblk m c 5 t) (iblk m c 6 t) (iblk m c 7 t) (iblk m c 8 t) := by dsimp only [dats]
theorem after_10 (c : Dev nD) (t : Fin cfg0.N) : (dats m 0 c).after 10 t = cellBlock (iblk m c 0 t) (iblk m c 1 t) (iblk m c 2 t) (iblk m c 3 t) (iblk m c 4 t) (iblk m c 5 t) (iblk m c 6 t) (iblk m c 7 t) (iblk m c 8 t) := by dsimp only [dats]

theorem held_0 (c : Dev nD) (t : Fin cfg0.N) (d) : (dats m 0 c).before 0 t d = iblk m c 0 t :=
  held_of_0 m (dats m 0 c) (A_eq m c 0) (after_0 m c) t d
theorem held_1 (c : Dev nD) (t : Fin cfg0.N) (d) : (dats m 0 c).before 1 t d = iblk m c 1 t :=
  held_of_1 m (dats m 0 c) (A_eq m c 1) (after_1 m c) t d
theorem held_2 (c : Dev nD) (t : Fin cfg0.N) (d) : (dats m 0 c).before 2 t d = iblk m c 2 t :=
  held_of_2 m (dats m 0 c) (A_eq m c 2) (after_2 m c) t d
theorem held_3 (c : Dev nD) (t : Fin cfg0.N) (d) : (dats m 0 c).before 3 t d = iblk m c 3 t :=
  held_of_3 m (dats m 0 c) (A_eq m c 3) (after_3 m c) t d
theorem held_4 (c : Dev nD) (t : Fin cfg0.N) (d) : (dats m 0 c).before 4 t d = iblk m c 4 t :=
  held_of_4 m (dats m 0 c) (A_eq m c 4) (after_4 m c) t d
theorem held_5 (c : Dev nD) (t : Fin cfg0.N) (d) : (dats m 0 c).before 5 t d = iblk m c 5 t :=
  held_of_5 m (dats m 0 c) (A_eq m c 5) (after_5 m c) t d
theorem held_6 (c : Dev nD) (t : Fin cfg0.N) (d) : (dats m 0 c).before 6 t d = iblk m c 6 t :=
  held_of_6 m (dats m 0 c) (A_eq m c 6) (after_6 m c) t d
theorem held_7 (c : Dev nD) (t : Fin cfg0.N) (d) : (dats m 0 c).before 7 t d = iblk m c 7 t :=
  held_of_7 m (dats m 0 c) (A_eq m c 7) (after_7 m c) t d
theorem held_8 (c : Dev nD) (t : Fin cfg0.N) (d) : (dats m 0 c).before 8 t d = iblk m c 8 t :=
  held_of_8 m (dats m 0 c) (A_eq m c 8) (after_8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_0, held_1, held_2, held_3, held_4, held_5, held_6, held_7, held_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_runs c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main terminates, and in every final state each array of the pipeline holds what the
    proof data says (an input its entry contents, an output those overwritten block by block by what the body stored)
    and every other buffer what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run keeps the twenty-five argument arrays. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  kept_of m ρ (dats m) (A_eq m) (run_main m ρ)

end Cert.Kernel.CellRun

end
-- ==== Proof.CellRunIdeal.lean ====
/-
  The fused LSTM cell, as a run. Each of the eight grid points takes a block of 1024 batch rows of x, h_t, h_s, c_t, c_s
  together with the three concatenated weight matrices and the concatenated bias (the same whole arrays at every point),
  forms the 1024 × 2560 gate pre-activations  x·U + h_t·W_t + h_s·W_s + b,  cuts them into the five 512-column gates, and
  stores  c' = σ(g_i)·tanh(g_c) + σ(g_ft)·c_t + σ(g_fs)·c_s  and  h' = σ(g_o)·tanh(c')  over the whole of its two output blocks.
  This module says that such a run terminates without a fault, leaves every argument array as it found it, and leaves in
  each output array, block by block, what the body stored: the body's two stores are whole-block stores of a pure function
  of the nine input blocks, the input blocks are where the pipeline put them (fetched at this point or kept from the
  previous one), and the host lines before the region write none of the arguments. Nothing here depends on how floats
  are read, so the same text serves the word-level program and the program over the extended reals.
-/
import proofs.«138706_j21534966022556_2_alg».proof.Proof.Gen.KernelIdeal.Launch
import proofs.«138706_j21534966022556_2_alg».proof.Proof.Gen.KernelIdeal.Skeleton
import proofs.«138706_j21534966022556_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers after the eleven host lines (four concatenations, a reshape, six changes of format). -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is those host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-! Every host line writes a buffer of its own, never an argument: the region finds each argument as launched. -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))
theorem V_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append, List.nil_append, List.Forall,
      StableHlo.nary_writes, StableHlo.unary_writes, StableHlo.reshape_writes, Finset.mem_singleton]
    repeat' apply And.intro
    all_goals exact StableHlo.devRef_ne_of_ne (by decide)))

/-! ## A window's block at a point -/

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point: fetched there, or, for the weights and the bias,
    kept from the first point on, their block index never moving. -/

theorem held_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem held_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem held_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem held_of_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- In a final state where every array of the pipeline is what the proof data says and every other buffer is what the
    region found, the arguments are unchanged (c_t and c_s are staged inputs, read only; the others are no window's array). -/
theorem kept_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  ⟨((h c).2 main_arg0 (Pipeline.mem_restRefs_of main_arg0 (by decide) (by decide))).trans (V_arg0 m c),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).1 3).trans (((dats 0 c).arrAt_in 3 rfl _).trans ((hA c 3).trans (V_arg3 m c))),
      ((h c).1 4).trans (((dats 0 c).arrAt_in 4 rfl _).trans ((hA c 4).trans (V_arg4 m c))),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c),
      ((h c).2 main_arg12 (Pipeline.mem_restRefs_of main_arg12 (by decide) (by decide))).trans (V_arg12 m c),
      ((h c).2 main_arg13 (Pipeline.mem_restRefs_of main_arg13 (by decide) (by decide))).trans (V_arg13 m c),
      ((h c).2 main_arg14 (Pipeline.mem_restRefs_of main_arg14 (by decide) (by decide))).trans (V_arg14 m c),
      ((h c).2 main_arg15 (Pipeline.mem_restRefs_of main_arg15 (by decide) (by decide))).trans (V_arg15 m c),
      ((h c).2 main_arg16 (Pipeline.mem_restRefs_of main_arg16 (by decide) (by decide))).trans (V_arg16 m c),
      ((h c).2 main_arg17 (Pipeline.mem_restRefs_of main_arg17 (by decide) (by decide))).trans (V_arg17 m c),
      ((h c).2 main_arg18 (Pipeline.mem_restRefs_of main_arg18 (by decide) (by decide))).trans (V_arg18 m c),
      ((h c).2 main_arg19 (Pipeline.mem_restRefs_of main_arg19 (by decide) (by decide))).trans (V_arg19 m c),
      ((h c).2 main_arg20 (Pipeline.mem_restRefs_of main_arg20 (by decide) (by decide))).trans (V_arg20 m c),
      ((h c).2 main_arg21 (Pipeline.mem_restRefs_of main_arg21 (by decide) (by decide))).trans (V_arg21 m c),
      ((h c).2 main_arg22 (Pipeline.mem_restRefs_of main_arg22 (by decide) (by decide))).trans (V_arg22 m c),
      ((h c).2 main_arg23 (Pipeline.mem_restRefs_of main_arg23 (by decide) (by decide))).trans (V_arg23 m c),
      ((h c).2 main_arg24 (Pipeline.mem_restRefs_of main_arg24 (by decide) (by decide))).trans (V_arg24 m c)⟩

/-- The same of a run. -/
theorem kept_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => kept_post m dats hA r h c) h

/-! ## What the body stores -/

abbrev rX : Rect S1024x256 := Rect.unit (s := S1024x256) ![0, 0] S1024x256.size inb_S1024x256_S1024x256_0_0
abbrev rH : Rect S1024x512 := Rect.unit (s := S1024x512) ![0, 0] S1024x512.size inb_S1024x512_S1024x512_0_0
abbrev rU : Rect S256x2560 := Rect.unit (s := S256x2560) ![0, 0] S256x2560.size inb_S256x2560_S256x2560_0_0
abbrev rW : Rect S512x2560 := Rect.unit (s := S512x2560) ![0, 0] S512x2560.size inb_S512x2560_S512x2560_0_0
abbrev rB : Rect S1x2560 := Rect.unit (s := S1x2560) ![0, 0] S1x2560.size inb_S1x2560_S1x2560_0_0

/-- The new cell state of a block: the body's one store into the second output, over the nine input blocks. -/
def cellBlock (x0 : Vec F S1024x256 .bf16) (x1 : Vec F S1024x512 .bf16) (x2 : Vec F S1024x512 .bf16) (x3 : Vec F S1024x512 .f32) (x4 : Vec F S1024x512 .f32) (x5 : Vec F S256x2560 .bf16) (x6 : Vec F S512x2560 .bf16) (x7 : Vec F S512x2560 .bf16) (x8 : Vec F S1x2560 .f32) : Vec F S1024x512 .f32 :=
  View.canon [⟨rH, k0_pay4 (View.ld x0 rX) (View.ld x1 rH) (View.ld x2 rH) (View.ld x5 rU) (View.ld x6 rW) (View.ld x7 rW) (View.ld x8 rB) (View.ld x3 rH) (View.ld x4 rH)⟩]

/-- The new hidden state of a block: the output gate times tanh of the new cell state, the one store into the first output. -/
def hiddenBlock (x0 : Vec F S1024x256 .bf16) (x1 : Vec F S1024x512 .bf16) (x2 : Vec F S1024x512 .bf16) (x3 : Vec F S1024x512 .f32) (x4 : Vec F S1024x512 .f32) (x5 : Vec F S256x2560 .bf16) (x6 : Vec F S512x2560 .bf16) (x7 : Vec F S512x2560 .bf16) (x8 : Vec F S1x2560 .f32) : Vec F S1024x512 .f32 :=
  View.canon [⟨rH, k0_pay1 (k0_pay3 (View.ld x0 rX) (View.ld x1 rH) (View.ld x2 rH) (View.ld x5 rU) (View.ld x6 rW) (View.ld x7 rW) (View.ld x8 rB))
    (k0_pay4 (View.ld x0 rX) (View.ld x1 rH) (View.ld x2 rH) (View.ld x5 rU) (View.ld x6 rW) (View.ld x7 rW) (View.ld x8 rB) (View.ld x3 rH) (View.ld x4 rH))⟩]

/-- One store over the whole block covers it. -/
theorem whole_cover (p0 : Vec F S1024x512 .f32) (y : S1024x512.Idx) :
    ∃ pc ∈ ([⟨rH, p0⟩] : List (View.Piece (Elt F) S1024x512 .f32)), y ∈ pc.1.set :=
  View.cover_of_tiled [⟨rH, p0⟩] S1024x512.size (by rfl) y

/-! ## The body's triple -/

set_option maxHeartbeats 4000000 in
/-- On whole buffers, the nine inputs at contents `x0 … x8` and the two outputs at anything, the body runs to the end,
    leaves the inputs as they were and the outputs at `hiddenBlock` and `cellBlock` of the inputs. -/
theorem body_runs (c : Dev nD) (E : Set ℕ) (i : grid0.Coords) (a0 : Memref sig .tc .vmem S1024x256 .bf16) (h0 : a0.IsWhole) (a1 : Memref sig .tc .vmem S1024x512 .bf16) (h1 : a1.IsWhole) (a2 : Memref sig .tc .vmem S1024x512 .bf16) (h2 : a2.IsWhole) (a3 : Memref sig .tc .vmem S1024x512 .f32) (h3 : a3.IsWhole) (a4 : Memref sig .tc .vmem S1024x512 .f32) (h4 : a4.IsWhole) (a5 : Memref sig .tc .vmem S256x2560 .bf16) (h5 : a5.IsWhole) (a6 : Memref sig .tc .vmem S512x2560 .bf16) (h6 : a6.IsWhole) (a7 : Memref sig .tc .vmem S512x2560 .bf16) (h7 : a7.IsWhole) (a8 : Memref sig .tc .vmem S1x2560 .f32) (h8 : a8.IsWhole) (a9 : Memref sig .tc .vmem S1024x512 .f32) (h9 : a9.IsWhole) (a10 : Memref sig .tc .vmem S1024x512 .f32) (h10 : a10.IsWhole)
    (x0 : Vec F S1024x256 .bf16) (x1 : Vec F S1024x512 .bf16) (x2 : Vec F S1024x512 .bf16) (x3 : Vec F S1024x512 .f32) (x4 : Vec F S1024x512 .f32) (x5 : Vec F S256x2560 .bf16) (x6 : Vec F S512x2560 .bf16) (x7 : Vec F S512x2560 .bf16) (x8 : Vec F S1x2560 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (hiddenBlock x0 x1 x2 x3 x4 x5 x6 x7 x8) ∗ owns (c : Thread nD τ) a10 fullShare (cellBlock x0 x1 x2 x3 x4 x5 x6 x7 x8)) -∗ K ⟨⟩))
      ⊢ wp frame (wpE (defs₀ (F := F)) Variants.none c none) E (cc0__st_lstm_kernel i a0 h0 a1 h1 a2 h2 a3 h3 a4 h4 a5 h5 a6 h6 a7 h7 a8 h8 a9 h9 a10 h10) K := by
  simp only [cc0__st_lstm_kernel_eq_skeleton]; unfold cc0__st_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (whole_cover _)
  iexists _; isplitr
  swap; · iexact H10
  ipureintro
  try dsimp only
  exact View.read_writes_eq_canon _ _ _ (whole_cover _)

/-! ## The pipeline's proof data -/

/-- After the body at point `t`: each input buffer still at its block, the outputs at the two stored blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => hiddenBlock (iblk m c 0 t) (iblk m c 1 t) (iblk m c 2 t) (iblk m c 3 t) (iblk m c 4 t) (iblk m c 5 t) (iblk m c 6 t) (iblk m c 7 t) (iblk m c 8 t)
    | ⟨10, _⟩ => cellBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = hiddenBlock (iblk m c 0 t) (iblk m c 1 t) (iblk m c 2 t) (iblk m c 3 t) (iblk m c 4 t) (iblk m c 5 t) (iblk m c 6 t) (iblk m c 7 t) (iblk m c 8 t) := by dsimp only [dats]
theorem after_10 (c : Dev nD) (t : Fin cfg0.N) : (dats m 0 c).after 10 t = cellBlock (iblk m c 0 t) (iblk m c 1 t) (iblk m c 2 t) (iblk m c 3 t) (iblk m c 4 t) (iblk m c 5 t) (iblk m c 6 t) (iblk m c 7 t) (iblk m c 8 t) := by dsimp only [dats]

theorem held_0 (c : Dev nD) (t : Fin cfg0.N) (d) : (dats m 0 c).before 0 t d = iblk m c 0 t :=
  held_of_0 m (dats m 0 c) (A_eq m c 0) (after_0 m c) t d
theorem held_1 (c : Dev nD) (t : Fin cfg0.N) (d) : (dats m 0 c).before 1 t d = iblk m c 1 t :=
  held_of_1 m (dats m 0 c) (A_eq m c 1) (after_1 m c) t d
theorem held_2 (c : Dev nD) (t : Fin cfg0.N) (d) : (dats m 0 c).before 2 t d = iblk m c 2 t :=
  held_of_2 m (dats m 0 c) (A_eq m c 2) (after_2 m c) t d
theorem held_3 (c : Dev nD) (t : Fin cfg0.N) (d) : (dats m 0 c).before 3 t d = iblk m c 3 t :=
  held_of_3 m (dats m 0 c) (A_eq m c 3) (after_3 m c) t d
theorem held_4 (c : Dev nD) (t : Fin cfg0.N) (d) : (dats m 0 c).before 4 t d = iblk m c 4 t :=
  held_of_4 m (dats m 0 c) (A_eq m c 4) (after_4 m c) t d
theorem held_5 (c : Dev nD) (t : Fin cfg0.N) (d) : (dats m 0 c).before 5 t d = iblk m c 5 t :=
  held_of_5 m (dats m 0 c) (A_eq m c 5) (after_5 m c) t d
theorem held_6 (c : Dev nD) (t : Fin cfg0.N) (d) : (dats m 0 c).before 6 t d = iblk m c 6 t :=
  held_of_6 m (dats m 0 c) (A_eq m c 6) (after_6 m c) t d
theorem held_7 (c : Dev nD) (t : Fin cfg0.N) (d) : (dats m 0 c).before 7 t d = iblk m c 7 t :=
  held_of_7 m (dats m 0 c) (A_eq m c 7) (after_7 m c) t d
theorem held_8 (c : Dev nD) (t : Fin cfg0.N) (d) : (dats m 0 c).before 8 t d = iblk m c 8 t :=
  held_of_8 m (dats m 0 c) (A_eq m c 8) (after_8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_0, held_1, held_2, held_3, held_4, held_5, held_6, held_7, held_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_runs c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main terminates, and in every final state each array of the pipeline holds what the
    proof data says (an input its entry contents, an output those overwritten block by block by what the body stored)
    and every other buffer what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run keeps the twenty-five argument arrays. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  kept_of m ρ (dats m) (A_eq m) (run_main m ρ)

end Cert.KernelIdeal.CellRun

end
-- ==== Proof.CellSpec.lean ====
/-
  One step of the two-state LSTM cell, as a function of the arguments, entry by entry, over the extended reals.

  For a batch row with input row `xr` (256 entries) and previous hidden rows `tr`, `sr` (512 entries each), the gate
  pre-activation in column `n` of the 2560 concatenated columns is
      gate n = ((Σₖ xr k · U (k, n)  +  Σₖ tr k · Wt (k, n))  +  Σₖ sr k · Ws (k, n))  +  b n,
  the five gates are the five consecutive 512-column slabs of it, and with σ the logistic function
      c' = (σ(gate q) · tanh(gate (2048 + q))  +  σ(gate (1024 + q)) · c_t)  +  σ(gate (512 + q)) · c_s
      h' = σ(gate (1536 + q)) · tanh c'.
  The sums are associated exactly as both programs associate them, so no law of the extended reals is needed to
  compare either program with this function.
-/
import Idealize.ShloMosaic.Lib.ValueIdx
import Idealize.ShloMosaic.PureOps.Ideal.Laws

noncomputable section

open scoped BigOperators

namespace Cert.CellSpec

open Idealize.ShloMosaic Idealize.ShloMosaic.ValueIdx

/-- Column `q` of the slab of 512 columns that starts at column `o`. -/
def slabCol (o : Nat) (h : o + 512 ≤ 2560) (q : Fin 512) : Fin 2560 := ⟨o + q.val, by have := q.isLt; omega⟩

/-- The gate pre-activation of one batch row in column `n`. -/
def gate (xr : Fin 256 → EReal) (tr sr : Fin 512 → EReal) (U : (⟨2, ![256, 2560]⟩ : Shape).Idx → EReal)
    (Wt Ws : (⟨2, ![512, 2560]⟩ : Shape).Idx → EReal) (b : Fin 2560 → EReal) (n : Fin 2560) : EReal :=
  (((∑ k : Fin 256, xr k * U (ix2 k n)) + ∑ k : Fin 512, tr k * Wt (ix2 k n)) + ∑ k : Fin 512, sr k * Ws (ix2 k n)) + b n

/-- The new cell state of one batch row in column `q`, from the row's two previous cell states `ct`, `cs` there. -/
def newCell (xr : Fin 256 → EReal) (tr sr : Fin 512 → EReal) (ct cs : EReal) (U : (⟨2, ![256, 2560]⟩ : Shape).Idx → EReal)
    (Wt Ws : (⟨2, ![512, 2560]⟩ : Shape).Idx → EReal) (b : Fin 2560 → EReal) (q : Fin 512) : EReal :=
  (Ideal.logistic (gate xr tr sr U Wt Ws b (slabCol 0 (by omega) q)) * Ideal.tanh (gate xr tr sr U Wt Ws b (slabCol 2048 (by omega) q))
      + Ideal.logistic (gate xr tr sr U Wt Ws b (slabCol 1024 (by omega) q)) * ct)
    + Ideal.logistic (gate xr tr sr U Wt Ws b (slabCol 512 (by omega) q)) * cs

/-- The new hidden state there: the output gate times tanh of the new cell state. -/
def newHidden (xr : Fin 256 → EReal) (tr sr : Fin 512 → EReal) (ct cs : EReal) (U : (⟨2, ![256, 2560]⟩ : Shape).Idx → EReal)
    (Wt Ws : (⟨2, ![512, 2560]⟩ : Shape).Idx → EReal) (b : Fin 2560 → EReal) (q : Fin 512) : EReal :=
  Ideal.logistic (gate xr tr sr U Wt Ws b (slabCol 1536 (by omega) q)) * Ideal.tanh (newCell xr tr sr ct cs U Wt Ws b q)

/-- The new cell states of the whole batch: entry `(r, q)` depends on row `r` of x, h_t, h_s and on entry `(r, q)` of c_t, c_s. -/
def cellArr (x : (⟨2, ![8192, 256]⟩ : Shape).Idx → EReal) (ht hs ct cs : (⟨2, ![8192, 512]⟩ : Shape).Idx → EReal)
    (U : (⟨2, ![256, 2560]⟩ : Shape).Idx → EReal) (Wt Ws : (⟨2, ![512, 2560]⟩ : Shape).Idx → EReal) (b : Fin 2560 → EReal) :
    (⟨2, ![8192, 512]⟩ : Shape).Idx → EReal :=
  fun I => newCell (fun k => x (ix2 (I 0) k)) (fun k => ht (ix2 (I 0) k)) (fun k => hs (ix2 (I 0) k)) (ct I) (cs I) U Wt Ws b (I 1)

/-- The new hidden states of the whole batch. -/
def hiddenArr (x : (⟨2, ![8192, 256]⟩ : Shape).Idx → EReal) (ht hs ct cs : (⟨2, ![8192, 512]⟩ : Shape).Idx → EReal)
    (U : (⟨2, ![256, 2560]⟩ : Shape).Idx → EReal) (Wt Ws : (⟨2, ![512, 2560]⟩ : Shape).Idx → EReal) (b : Fin 2560 → EReal) :
    (⟨2, ![8192, 512]⟩ : Shape).Idx → EReal :=
  fun I => newHidden (fun k => x (ix2 (I 0) k)) (fun k => ht (ix2 (I 0) k)) (fun k => hs (ix2 (I 0) k)) (ct I) (cs I) U Wt Ws b (I 1)

end Cert.CellSpec

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.CellBlockValue.lean ====
/-
  What the body stores, entry by entry, over the extended reals.

  Entry `(p, q)` of the block the body stores into the cell-state output is `CellSpec.newCell` of row `p` of the three
  matrix-product operands, entry `(p, q)` of the two previous cell-state blocks, the three weight matrices and the
  bias row; the block stored into the hidden-state output is `CellSpec.newHidden` of the same. The three matrix
  products into zero accumulators are plain sums, the bias row is repeated down the rows, the five gates are slabs of
  512 columns, and the logistic function, tanh, sum and product are taken entry by entry.
-/
import proofs.«138706_j21534966022556_2_alg».proof.Proof.CellRunIdeal
import proofs.«138706_j21534966022556_2_alg».proof.Proof.CellSpec
import proofs.«138706_j21534966022556_2_alg».proof.Proof.LibHostRead
import Idealize.ShloMosaic.Lib.Pipeline.Value

set_option maxRecDepth 16384

noncomputable section

open scoped BigOperators

namespace Cert.KernelIdeal.CellValue

open Cert.KernelIdeal Cert.KernelIdeal.Gen Cert.KernelIdeal.CellRun Cert.CellSpec
open Idealize.ShloMosaic Idealize.ShloMosaic.ValueIdx

theorem zero_off : (![0, 0] : Fin 2 → Nat) = fun _ => 0 := funext fun a => by fin_cases a <;> rfl

/-- The gate pre-activations of a block at row `p`, column `n`. -/
theorem gates_apply (x0 : Vec Ideal S1024x256 .bf16) (x1 x2 : Vec Ideal S1024x512 .bf16) (x5 : Vec Ideal S256x2560 .bf16)
    (x6 x7 : Vec Ideal S512x2560 .bf16) (x8 : Vec Ideal S1x2560 .f32) (p : Fin 1024) (n : Fin 2560) :
    k0_pay2 x0 x1 x2 x5 x6 x7 x8 (ix2 p n)
      = gate (fun k => x0 (ix2 p k)) (fun k => x1 (ix2 p k)) (fun k => x2 (ix2 p k)) x5 x6 x7 (fun n => x8 (ix2 (0 : Fin 1) n)) n := by
  unfold k0_pay2
  simp only [shapeCast_self]
  have e1 : matmul dot_S1024x256_S256x2560_S1024x2560_1_0_0_1_n_n none x0 x5 (constant (F := Ideal) S1024x2560 .f32 0x00000000#32) (ix2 p n)
      = ∑ k : Fin 256, x0 (ix2 p k) * x5 (ix2 k n) :=
    LibHR.plainMatmul_zero_apply (φ₁ := .bf16) (φ₂ := .bf16) 1024 256 2560 dot_S1024x256_S256x2560_S1024x2560_1_0_0_1_n_n_wf x0 x5 p n
  have e2 : matmul dot_S1024x512_S512x2560_S1024x2560_1_0_0_1_n_n none x1 x6 (constant (F := Ideal) S1024x2560 .f32 0x00000000#32) (ix2 p n)
      = ∑ k : Fin 512, x1 (ix2 p k) * x6 (ix2 k n) :=
    LibHR.plainMatmul_zero_apply (φ₁ := .bf16) (φ₂ := .bf16) 1024 512 2560 dot_S1024x512_S512x2560_S1024x2560_1_0_0_1_n_n_wf x1 x6 p n
  have e3 : matmul dot_S1024x512_S512x2560_S1024x2560_1_0_0_1_n_n none x2 x7 (constant (F := Ideal) S1024x2560 .f32 0x00000000#32) (ix2 p n)
      = ∑ k : Fin 512, x2 (ix2 p k) * x7 (ix2 k n) :=
    LibHR.plainMatmul_zero_apply (φ₁ := .bf16) (φ₂ := .bf16) 1024 512 2560 dot_S1024x512_S512x2560_S1024x2560_1_0_0_1_n_n_wf x2 x7 p n
  have e4 : broadcastTo S1024x2560 x8 broadcasts_S1x2560_S1024x2560 (ix2 p n) = x8 (ix2 (0 : Fin 1) n) :=
    broadcastTo_apply x8 _ (ix2 p n) (ix2 (0 : Fin 1) n) (fun a => match a with
      | ⟨0, _⟩ => by show (0 : Nat) = if (1 : Nat) = 1 then 0 else _; rw [if_pos rfl]
      | ⟨1, _⟩ => by show n.val = if (2560 : Nat) = 1 then 0 else n.val; rw [if_neg (by decide)])
  unfold gate
  beta_reduce
  rw [← e1, ← e2, ← e3, ← e4]
  rfl

/-- A slab of 512 columns of the gate pre-activations. -/
theorem slab_apply (g : Vec Ideal S1024x2560 .f32) (o : Nat) (ho : o + 512 ≤ 2560) (h : S1024x2560.Slices ![0, o] S1024x512) (p : Fin 1024) (q : Fin 512) :
    extractStridedSlice S1024x512 ![0, o] g h (ix2 p q) = g (ix2 p (slabCol o ho q)) :=
  extractStridedSlice_apply ![0, o] g h (ix2 p q) (ix2 p (slabCol o ho q)) (fun a => match a with
    | ⟨0, _⟩ => by show p.val = 0 + p.val; omega
    | ⟨1, _⟩ => by show o + q.val = o + q.val; rfl)

/-- The stored cell-state block at `(p, q)`. -/
theorem pay_cell_apply (x0 : Vec Ideal S1024x256 .bf16) (x1 x2 : Vec Ideal S1024x512 .bf16) (x3 x4 : Vec Ideal S1024x512 .f32) (x5 : Vec Ideal S256x2560 .bf16)
    (x6 x7 : Vec Ideal S512x2560 .bf16) (x8 : Vec Ideal S1x2560 .f32) (p : Fin 1024) (q : Fin 512) :
    k0_pay4 x0 x1 x2 x5 x6 x7 x8 x3 x4 (ix2 p q)
      = newCell (fun k => x0 (ix2 p k)) (fun k => x1 (ix2 p k)) (fun k => x2 (ix2 p k)) (x3 (ix2 p q)) (x4 (ix2 p q)) x5 x6 x7 (fun n => x8 (ix2 (0 : Fin 1) n)) q := by
  have hg := gates_apply x0 x1 x2 x5 x6 x7 x8 p
  have s0 := slab_apply (k0_pay2 x0 x1 x2 x5 x6 x7 x8) 0 (by omega) slices_S1024x2560_o0_0_S1024x512 p q
  have s1 := slab_apply (k0_pay2 x0 x1 x2 x5 x6 x7 x8) 512 (by omega) slices_S1024x2560_o0_512_S1024x512 p q
  have s2 := slab_apply (k0_pay2 x0 x1 x2 x5 x6 x7 x8) 1024 (by omega) slices_S1024x2560_o0_1024_S1024x512 p q
  have s4 := slab_apply (k0_pay2 x0 x1 x2 x5 x6 x7 x8) 2048 (by omega) slices_S1024x2560_o0_2048_S1024x512 p q
  unfold newCell
  rw [← hg, ← hg, ← hg, ← hg, ← s0, ← s4, ← s2, ← s1]
  rfl

/-- The stored hidden-state block at `(p, q)`. -/
theorem pay_hidden_apply (x0 : Vec Ideal S1024x256 .bf16) (x1 x2 : Vec Ideal S1024x512 .bf16) (x3 x4 : Vec Ideal S1024x512 .f32) (x5 : Vec Ideal S256x2560 .bf16)
    (x6 x7 : Vec Ideal S512x2560 .bf16) (x8 : Vec Ideal S1x2560 .f32) (p : Fin 1024) (q : Fin 512) :
    k0_pay1 (k0_pay3 x0 x1 x2 x5 x6 x7 x8) (k0_pay4 x0 x1 x2 x5 x6 x7 x8 x3 x4) (ix2 p q)
      = newHidden (fun k => x0 (ix2 p k)) (fun k => x1 (ix2 p k)) (fun k => x2 (ix2 p k)) (x3 (ix2 p q)) (x4 (ix2 p q)) x5 x6 x7 (fun n => x8 (ix2 (0 : Fin 1) n)) q := by
  have hg := gates_apply x0 x1 x2 x5 x6 x7 x8 p
  have s3 := slab_apply (k0_pay2 x0 x1 x2 x5 x6 x7 x8) 1536 (by omega) slices_S1024x2560_o0_1536_S1024x512 p q
  unfold newHidden
  rw [← pay_cell_apply x0 x1 x2 x3 x4 x5 x6 x7 x8 p q, ← hg, ← s3]
  rfl

/-- The two stored blocks, read at an entry. -/
theorem cellBlock_apply (x0 : Vec Ideal S1024x256 .bf16) (x1 x2 : Vec Ideal S1024x512 .bf16) (x3 x4 : Vec Ideal S1024x512 .f32) (x5 : Vec Ideal S256x2560 .bf16)
    (x6 x7 : Vec Ideal S512x2560 .bf16) (x8 : Vec Ideal S1x2560 .f32) (p : Fin 1024) (q : Fin 512) :
    cellBlock x0 x1 x2 x3 x4 x5 x6 x7 x8 (ix2 p q)
      = newCell (fun k => x0 (ix2 p k)) (fun k => x1 (ix2 p k)) (fun k => x2 (ix2 p k)) (x3 (ix2 p q)) (x4 (ix2 p q)) x5 x6 x7 (fun n => x8 (ix2 (0 : Fin 1) n)) q := by
  unfold cellBlock
  rw [View.canon_unit_zero zero_off]
  simp only [View.ld_unit_zero (S := S1024x256) zero_off, View.ld_unit_zero (S := S1024x512) zero_off, View.ld_unit_zero (S := S256x2560) zero_off,
    View.ld_unit_zero (S := S512x2560) zero_off, View.ld_unit_zero (S := S1x2560) zero_off]
  exact pay_cell_apply x0 x1 x2 x3 x4 x5 x6 x7 x8 p q

theorem hiddenBlock_apply (x0 : Vec Ideal S1024x256 .bf16) (x1 x2 : Vec Ideal S1024x512 .bf16) (x3 x4 : Vec Ideal S1024x512 .f32) (x5 : Vec Ideal S256x2560 .bf16)
    (x6 x7 : Vec Ideal S512x2560 .bf16) (x8 : Vec Ideal S1x2560 .f32) (p : Fin 1024) (q : Fin 512) :
    hiddenBlock x0 x1 x2 x3 x4 x5 x6 x7 x8 (ix2 p q)
      = newHidden (fun k => x0 (ix2 p k)) (fun k => x1 (ix2 p k)) (fun k => x2 (ix2 p k)) (x3 (ix2 p q)) (x4 (ix2 p q)) x5 x6 x7 (fun n => x8 (ix2 (0 : Fin 1) n)) q := by
  unfold hiddenBlock
  rw [View.canon_unit_zero zero_off]
  simp only [View.ld_unit_zero (S := S1024x256) zero_off, View.ld_unit_zero (S := S1024x512) zero_off, View.ld_unit_zero (S := S256x2560) zero_off,
    View.ld_unit_zero (S := S512x2560) zero_off, View.ld_unit_zero (S := S1x2560) zero_off]
  exact pay_hidden_apply x0 x1 x2 x3 x4 x5 x6 x7 x8 p q

/-- Entry `(p, q)` of the stored block is entry `I` of the whole-batch function, when row `p` of the block's three product
    operands is row `I 0` of the arrays, the previous cell states at `(p, q)` are the arrays' at `I`, and `I` is in column `q`. -/
theorem cellBlock_entry (x0 : Vec Ideal S1024x256 .bf16) (x1 x2 : Vec Ideal S1024x512 .bf16) (x3 x4 : Vec Ideal S1024x512 .f32) (x5 : Vec Ideal S256x2560 .bf16)
    (x6 x7 : Vec Ideal S512x2560 .bf16) (x8 : Vec Ideal S1x2560 .f32)
    (X : S8192x256.Idx → EReal) (HT HS CT CS : S8192x512.Idx → EReal) (b : Fin 2560 → EReal) (p : Fin 1024) (q : Fin 512) (I : S8192x512.Idx)
    (h0 : ∀ k : Fin 256, x0 (ix2 p k) = X (ix2 (I 0) k)) (h1 : ∀ k : Fin 512, x1 (ix2 p k) = HT (ix2 (I 0) k))
    (h2 : ∀ k : Fin 512, x2 (ix2 p k) = HS (ix2 (I 0) k)) (h3 : x3 (ix2 p q) = CT I) (h4 : x4 (ix2 p q) = CS I)
    (h8 : ∀ n : Fin 2560, x8 (ix2 (0 : Fin 1) n) = b n) (hq : I 1 = q) :
    cellBlock x0 x1 x2 x3 x4 x5 x6 x7 x8 (ix2 p q) = cellArr X HT HS CT CS x5 x6 x7 b I := by
  rw [cellBlock_apply]
  unfold cellArr
  rw [h3, h4, hq]
  simp only [h0, h1, h2, h8]

/-- Entry `(p, q)` of the stored block is entry `I` of the whole-batch function, when row `p` of the block's three product
    operands is row `I 0` of the arrays, the previous cell states at `(p, q)` are the arrays' at `I`, and `I` is in column `q`. -/
theorem hiddenBlock_entry (x0 : Vec Ideal S1024x256 .bf16) (x1 x2 : Vec Ideal S1024x512 .bf16) (x3 x4 : Vec Ideal S1024x512 .f32) (x5 : Vec Ideal S256x2560 .bf16)
    (x6 x7 : Vec Ideal S512x2560 .bf16) (x8 : Vec Ideal S1x2560 .f32)
    (X : S8192x256.Idx → EReal) (HT HS CT CS : S8192x512.Idx → EReal) (b : Fin 2560 → EReal) (p : Fin 1024) (q : Fin 512) (I : S8192x512.Idx)
    (h0 : ∀ k : Fin 256, x0 (ix2 p k) = X (ix2 (I 0) k)) (h1 : ∀ k : Fin 512, x1 (ix2 p k) = HT (ix2 (I 0) k))
    (h2 : ∀ k : Fin 512, x2 (ix2 p k) = HS (ix2 (I 0) k)) (h3 : x3 (ix2 p q) = CT I) (h4 : x4 (ix2 p q) = CS I)
    (h8 : ∀ n : Fin 2560, x8 (ix2 (0 : Fin 1) n) = b n) (hq : I 1 = q) :
    hiddenBlock x0 x1 x2 x3 x4 x5 x6 x7 x8 (ix2 p q) = hiddenArr X HT HS CT CS x5 x6 x7 b I := by
  rw [hiddenBlock_apply]
  unfold hiddenArr
  rw [h3, h4, hq]
  simp only [h0, h1, h2, h8]

end Cert.KernelIdeal.CellValue

end
-- ==== Proof.CellArrays.lean ====
/-
  From blocks to arrays, over the extended reals.

  Point `t` of the grid takes rows `1024·t … 1024·t + 1023` of x, h_t, h_s, c_t, c_s and writes the same rows of the two
  results; the weights and the bias are taken whole at every point. So what a point writes back is block `t` of ONE
  function of the arrays the region finds (`CellSpec.hiddenArr`, `CellSpec.cellArr`), and as the eight blocks cover the
  8192 rows each result array ends holding that function. The arrays the region finds are the arguments up to a change
  of float format (the identity here), the weights concatenated along the columns, and the concatenated bias as one row.
-/
import proofs.«138706_j21534966022556_2_alg».proof.Proof.CellBlockValue
import Idealize.ShloMosaic.Lib.StableHlo.Run

set_option maxRecDepth 16384

noncomputable section

open scoped BigOperators

namespace Cert.KernelIdeal.CellValue

open Cert.KernelIdeal Cert.KernelIdeal.Gen Cert.KernelIdeal.CellRun Cert.CellSpec
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ) (ρ : Dev nD → PrngReg)

/-- The printed index maps, decided over the eight points: the batch-row windows are at block row `t`, column block 0;
    the weights and the bias at block (0, 0). -/
theorem index_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_9.index t (0 : Fin 2) = t.val
    ∧ win0_9.index t (1 : Fin 2) = 0
    ∧ win0_10.index t (0 : Fin 2) = t.val
    ∧ win0_10.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- The whole of a weight array is its one block, at every point. -/
theorem whole_5 (c : Dev nD) (t : Fin cfg0.N) : iblk m c 5 t = V m c main_v1 := by
  obtain ⟨r0, c0, r1, c1, r2, c2, r3, c3, r4, c4, r9, c9, r10, c10, r5, c5, r6, c6, r7, c7, r8, c8⟩ := index_facts t
  funext y
  show V m c main_v1 (((cfg0.win 5).blk t).view.emb y) = V m c main_v1 y
  refine congrArg (V m c main_v1) ?_
  funext a; apply Fin.ext
  match a with
  | ⟨0, _⟩ => show win0_5.index t (0 : Fin 2) * 256 + 1 * (y 0).val = (y 0).val; omega
  | ⟨1, _⟩ => show win0_5.index t (1 : Fin 2) * 2560 + 1 * (y 1).val = (y 1).val; omega
/-- The whole of a weight array is its one block, at every point. -/
theorem whole_6 (c : Dev nD) (t : Fin cfg0.N) : iblk m c 6 t = V m c main_v3 := by
  obtain ⟨r0, c0, r1, c1, r2, c2, r3, c3, r4, c4, r9, c9, r10, c10, r5, c5, r6, c6, r7, c7, r8, c8⟩ := index_facts t
  funext y
  show V m c main_v3 (((cfg0.win 6).blk t).view.emb y) = V m c main_v3 y
  refine congrArg (V m c main_v3) ?_
  funext a; apply Fin.ext
  match a with
  | ⟨0, _⟩ => show win0_6.index t (0 : Fin 2) * 512 + 1 * (y 0).val = (y 0).val; omega
  | ⟨1, _⟩ => show win0_6.index t (1 : Fin 2) * 2560 + 1 * (y 1).val = (y 1).val; omega
/-- The whole of a weight array is its one block, at every point. -/
theorem whole_7 (c : Dev nD) (t : Fin cfg0.N) : iblk m c 7 t = V m c main_v5 := by
  obtain ⟨r0, c0, r1, c1, r2, c2, r3, c3, r4, c4, r9, c9, r10, c10, r5, c5, r6, c6, r7, c7, r8, c8⟩ := index_facts t
  funext y
  show V m c main_v5 (((cfg0.win 7).blk t).view.emb y) = V m c main_v5 y
  refine congrArg (V m c main_v5) ?_
  funext a; apply Fin.ext
  match a with
  | ⟨0, _⟩ => show win0_7.index t (0 : Fin 2) * 512 + 1 * (y 0).val = (y 0).val; omega
  | ⟨1, _⟩ => show win0_7.index t (1 : Fin 2) * 2560 + 1 * (y 1).val = (y 1).val; omega

/-- What point `t` writes back into the cell-state array is block `t` of the whole-batch function of the arrays the region finds. -/
theorem flushed_10 (c : Dev nD) (t : Fin cfg0.N) :
    (dats m 0 c).flushed 10 t = ((cfg0.win 10).blk t).view.read (Elt Ideal)
      (cellArr (V m c main_v8) (V m c main_v9) (V m c main_v10) (V m c main_arg3) (V m c main_arg4) (V m c main_v1) (V m c main_v3) (V m c main_v5)
        (fun n => V m c main_v7 (ix2 (0 : Fin 1) n))) := by
  show (cfg0.win 10).cut (grid0.coords t) ((dats m 0 c).after 10 t) = _
  rw [after_10, whole_5 m c t, whole_6 m c t, whole_7 m c t]
  obtain ⟨r0, c0, r1, c1, r2, c2, r3, c3, r4, c4, r9, c9, r10, c10, r5, c5, r6, c6, r7, c7, r8, c8⟩ := index_facts t
  funext y
  obtain ⟨p, q, rfl⟩ : ∃ (p : Fin 1024) (q : Fin 512), y = ix2 p q := ⟨y 0, y 1, eq_ix2 y⟩
  refine cellBlock_entry (iblk m c 0 t) (iblk m c 1 t) (iblk m c 2 t) (iblk m c 3 t) (iblk m c 4 t) (V m c main_v1) (V m c main_v3) (V m c main_v5) (iblk m c 8 t)
    (V m c main_v8) (V m c main_v9) (V m c main_v10) (V m c main_arg3) (V m c main_arg4) (fun n => V m c main_v7 (ix2 (0 : Fin 1) n))
    p q (((cfg0.win 10).blk t).view.emb (ix2 p q)) ?_ ?_ ?_ ?_ ?_ ?_ ?_
  · intro k
    show V m c main_v8 (((cfg0.win 0).blk t).view.emb (ix2 p k)) = V m c main_v8 (ix2 ((((cfg0.win 10).blk t).view.emb (ix2 p q)) 0) k)
    refine congrArg (V m c main_v8) ?_
    funext a; apply Fin.ext
    match a with
    | ⟨0, _⟩ => show win0_0.index t (0 : Fin 2) * 1024 + 1 * p.val = win0_10.index t (0 : Fin 2) * 1024 + 1 * p.val; omega
    | ⟨1, _⟩ => show win0_0.index t (1 : Fin 2) * 256 + 1 * k.val = k.val; omega
  · intro k
    show V m c main_v9 (((cfg0.win 1).blk t).view.emb (ix2 p k)) = V m c main_v9 (ix2 ((((cfg0.win 10).blk t).view.emb (ix2 p q)) 0) k)
    refine congrArg (V m c main_v9) ?_
    funext a; apply Fin.ext
    match a with
    | ⟨0, _⟩ => show win0_1.index t (0 : Fin 2) * 1024 + 1 * p.val = win0_10.index t (0 : Fin 2) * 1024 + 1 * p.val; omega
    | ⟨1, _⟩ => show win0_1.index t (1 : Fin 2) * 512 + 1 * k.val = k.val; omega
  · intro k
    show V m c main_v10 (((cfg0.win 2).blk t).view.emb (ix2 p k)) = V m c main_v10 (ix2 ((((cfg0.win 10).blk t).view.emb (ix2 p q)) 0) k)
    refine congrArg (V m c main_v10) ?_
    funext a; apply Fin.ext
    match a with
    | ⟨0, _⟩ => show win0_2.index t (0 : Fin 2) * 1024 + 1 * p.val = win0_10.index t (0 : Fin 2) * 1024 + 1 * p.val; omega
    | ⟨1, _⟩ => show win0_2.index t (1 : Fin 2) * 512 + 1 * k.val = k.val; omega
  · show V m c main_arg3 (((cfg0.win 3).blk t).view.emb (ix2 p q)) = V m c main_arg3 (((cfg0.win 10).blk t).view.emb (ix2 p q))
    refine congrArg (V m c main_arg3) ?_
    funext a; apply Fin.ext
    match a with
    | ⟨0, _⟩ => show win0_3.index t (0 : Fin 2) * 1024 + 1 * p.val = win0_10.index t (0 : Fin 2) * 1024 + 1 * p.val; omega
    | ⟨1, _⟩ => show win0_3.index t (1 : Fin 2) * 512 + 1 * q.val = win0_10.index t (1 : Fin 2) * 512 + 1 * q.val; omega
  · show V m c main_arg4 (((cfg0.win 4).blk t).view.emb (ix2 p q)) = V m c main_arg4 (((cfg0.win 10).blk t).view.emb (ix2 p q))
    refine congrArg (V m c main_arg4) ?_
    funext a; apply Fin.ext
    match a with
    | ⟨0, _⟩ => show win0_4.index t (0 : Fin 2) * 1024 + 1 * p.val = win0_10.index t (0 : Fin 2) * 1024 + 1 * p.val; omega
    | ⟨1, _⟩ => show win0_4.index t (1 : Fin 2) * 512 + 1 * q.val = win0_10.index t (1 : Fin 2) * 512 + 1 * q.val; omega
  · intro n
    show V m c main_v7 (((cfg0.win 8).blk t).view.emb (ix2 (0 : Fin 1) n)) = V m c main_v7 (ix2 (0 : Fin 1) n)
    refine congrArg (V m c main_v7) ?_
    funext a; apply Fin.ext
    match a with
    | ⟨0, _⟩ => show win0_8.index t (0 : Fin 2) * 1 + 1 * 0 = 0; omega
    | ⟨1, _⟩ => show win0_8.index t (1 : Fin 2) * 2560 + 1 * n.val = n.val; omega
  · apply Fin.ext
    show win0_10.index t (1 : Fin 2) * 512 + 1 * q.val = q.val
    omega

/-- What point `t` writes back into the hidden-state array is block `t` of the whole-batch function of the arrays the region finds. -/
theorem flushed_9 (c : Dev nD) (t : Fin cfg0.N) :
    (dats m 0 c).flushed 9 t = ((cfg0.win 9).blk t).view.read (Elt Ideal)
      (hiddenArr (V m c main_v8) (V m c main_v9) (V m c main_v10) (V m c main_arg3) (V m c main_arg4) (V m c main_v1) (V m c main_v3) (V m c main_v5)
        (fun n => V m c main_v7 (ix2 (0 : Fin 1) n))) := by
  show (cfg0.win 9).cut (grid0.coords t) ((dats m 0 c).after 9 t) = _
  rw [after_9, whole_5 m c t, whole_6 m c t, whole_7 m c t]
  obtain ⟨r0, c0, r1, c1, r2, c2, r3, c3, r4, c4, r9, c9, r10, c10, r5, c5, r6, c6, r7, c7, r8, c8⟩ := index_facts t
  funext y
  obtain ⟨p, q, rfl⟩ : ∃ (p : Fin 1024) (q : Fin 512), y = ix2 p q := ⟨y 0, y 1, eq_ix2 y⟩
  refine hiddenBlock_entry (iblk m c 0 t) (iblk m c 1 t) (iblk m c 2 t) (iblk m c 3 t) (iblk m c 4 t) (V m c main_v1) (V m c main_v3) (V m c main_v5) (iblk m c 8 t)
    (V m c main_v8) (V m c main_v9) (V m c main_v10) (V m c main_arg3) (V m c main_arg4) (fun n => V m c main_v7 (ix2 (0 : Fin 1) n))
    p q (((cfg0.win 9).blk t).view.emb (ix2 p q)) ?_ ?_ ?_ ?_ ?_ ?_ ?_
  · intro k
    show V m c main_v8 (((cfg0.win 0).blk t).view.emb (ix2 p k)) = V m c main_v8 (ix2 ((((cfg0.win 9).blk t).view.emb (ix2 p q)) 0) k)
    refine congrArg (V m c main_v8) ?_
    funext a; apply Fin.ext
    match a with
    | ⟨0, _⟩ => show win0_0.index t (0 : Fin 2) * 1024 + 1 * p.val = win0_9.index t (0 : Fin 2) * 1024 + 1 * p.val; omega
    | ⟨1, _⟩ => show win0_0.index t (1 : Fin 2) * 256 + 1 * k.val = k.val; omega
  · intro k
    show V m c main_v9 (((cfg0.win 1).blk t).view.emb (ix2 p k)) = V m c main_v9 (ix2 ((((cfg0.win 9).blk t).view.emb (ix2 p q)) 0) k)
    refine congrArg (V m c main_v9) ?_
    funext a; apply Fin.ext
    match a with
    | ⟨0, _⟩ => show win0_1.index t (0 : Fin 2) * 1024 + 1 * p.val = win0_9.index t (0 : Fin 2) * 1024 + 1 * p.val; omega
    | ⟨1, _⟩ => show win0_1.index t (1 : Fin 2) * 512 + 1 * k.val = k.val; omega
  · intro k
    show V m c main_v10 (((cfg0.win 2).blk t).view.emb (ix2 p k)) = V m c main_v10 (ix2 ((((cfg0.win 9).blk t).view.emb (ix2 p q)) 0) k)
    refine congrArg (V m c main_v10) ?_
    funext a; apply Fin.ext
    match a with
    | ⟨0, _⟩ => show win0_2.index t (0 : Fin 2) * 1024 + 1 * p.val = win0_9.index t (0 : Fin 2) * 1024 + 1 * p.val; omega
    | ⟨1, _⟩ => show win0_2.index t (1 : Fin 2) * 512 + 1 * k.val = k.val; omega
  · show V m c main_arg3 (((cfg0.win 3).blk t).view.emb (ix2 p q)) = V m c main_arg3 (((cfg0.win 9).blk t).view.emb (ix2 p q))
    refine congrArg (V m c main_arg3) ?_
    funext a; apply Fin.ext
    match a with
    | ⟨0, _⟩ => show win0_3.index t (0 : Fin 2) * 1024 + 1 * p.val = win0_9.index t (0 : Fin 2) * 1024 + 1 * p.val; omega
    | ⟨1, _⟩ => show win0_3.index t (1 : Fin 2) * 512 + 1 * q.val = win0_9.index t (1 : Fin 2) * 512 + 1 * q.val; omega
  · show V m c main_arg4 (((cfg0.win 4).blk t).view.emb (ix2 p q)) = V m c main_arg4 (((cfg0.win 9).blk t).view.emb (ix2 p q))
    refine congrArg (V m c main_arg4) ?_
    funext a; apply Fin.ext
    match a with
    | ⟨0, _⟩ => show win0_4.index t (0 : Fin 2) * 1024 + 1 * p.val = win0_9.index t (0 : Fin 2) * 1024 + 1 * p.val; omega
    | ⟨1, _⟩ => show win0_4.index t (1 : Fin 2) * 512 + 1 * q.val = win0_9.index t (1 : Fin 2) * 512 + 1 * q.val; omega
  · intro n
    show V m c main_v7 (((cfg0.win 8).blk t).view.emb (ix2 (0 : Fin 1) n)) = V m c main_v7 (ix2 (0 : Fin 1) n)
    refine congrArg (V m c main_v7) ?_
    funext a; apply Fin.ext
    match a with
    | ⟨0, _⟩ => show win0_8.index t (0 : Fin 2) * 1 + 1 * 0 = 0; omega
    | ⟨1, _⟩ => show win0_8.index t (1 : Fin 2) * 2560 + 1 * n.val = n.val; omega
  · apply Fin.ext
    show win0_9.index t (1 : Fin 2) * 512 + 1 * q.val = q.val
    omega

theorem mem_blk_10 (t : Fin cfg0.N) (i : S8192x512.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v11_1).slice (win0_10.rect t)).set ↔ _
  rw [View.set_slice_whole, Rect.mem_set_unit]
  exact Iff.rfl

/-- Row `r` of the array lies in the block of point `r / 1024`: the eight blocks of 1024 rows cover the 8192 rows. -/
theorem cover_10 (i : S8192x512.Idx) : ∃ t : Fin cfg0.N, (cfg0.win 10).flush t = true ∧ i ∈ ((cfg0.win 10).blk t).view.set := by
  have hi0 : (i 0).val < 8192 := (i 0).isLt
  have hi1 : (i 1).val < 512 := (i 1).isLt
  have hN : cfg0.N = 8 := N_0
  let t : Fin cfg0.N := ⟨(i 0).val / 1024, by rw [hN]; omega⟩
  have ht : t.val = (i 0).val / 1024 := rfl
  obtain ⟨r0, c0, r1, c1, r2, c2, r3, c3, r4, c4, r9, c9, r10, c10, r5, c5, r6, c6, r7, c7, r8, c8⟩ := index_facts t
  refine ⟨t, flush0_10 t, ?_⟩
  rw [mem_blk_10]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 512 ≤ (i 1).val ∧ (i 1).val < win0_10.index t (1 : Fin 2) * 512 + 512; omega

theorem mem_blk_9 (t : Fin cfg0.N) (i : S8192x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v11_0).slice (win0_9.rect t)).set ↔ _
  rw [View.set_slice_whole, Rect.mem_set_unit]
  exact Iff.rfl

/-- Row `r` of the array lies in the block of point `r / 1024`: the eight blocks of 1024 rows cover the 8192 rows. -/
theorem cover_9 (i : S8192x512.Idx) : ∃ t : Fin cfg0.N, (cfg0.win 9).flush t = true ∧ i ∈ ((cfg0.win 9).blk t).view.set := by
  have hi0 : (i 0).val < 8192 := (i 0).isLt
  have hi1 : (i 1).val < 512 := (i 1).isLt
  have hN : cfg0.N = 8 := N_0
  let t : Fin cfg0.N := ⟨(i 0).val / 1024, by rw [hN]; omega⟩
  have ht : t.val = (i 0).val / 1024 := rfl
  obtain ⟨r0, c0, r1, c1, r2, c2, r3, c3, r4, c4, r9, c9, r10, c10, r5, c5, r6, c6, r7, c7, r8, c8⟩ := index_facts t
  refine ⟨t, flush0_9 t, ?_⟩
  rw [mem_blk_9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 512 ≤ (i 1).val ∧ (i 1).val < win0_9.index t (1 : Fin 2) * 512 + 512; omega

/-- Each result array after the run, whole. -/
theorem final_10 (c : Dev nD) : (dats m 0 c).arrAt 10 cfg0.N =
    cellArr (V m c main_v8) (V m c main_v9) (V m c main_v10) (V m c main_arg3) (V m c main_arg4) (V m c main_v1) (V m c main_v3) (V m c main_v5)
      (fun n => V m c main_v7 (ix2 (0 : Fin 1) n)) :=
  (dats m 0 c).arrAt_eq_of_cover 10 _ (fun t _ => flushed_10 m c t) cover_10

theorem final_9 (c : Dev nD) : (dats m 0 c).arrAt 9 cfg0.N =
    hiddenArr (V m c main_v8) (V m c main_v9) (V m c main_v10) (V m c main_arg3) (V m c main_arg4) (V m c main_v1) (V m c main_v3) (V m c main_v5)
      (fun n => V m c main_v7 (ix2 (0 : Fin 1) n)) :=
  (dats m 0 c).arrAt_eq_of_cover 9 _ (fun t _ => flushed_9 m c t) cover_9

end Cert.KernelIdeal.CellValue

end
-- ==== Proof.CellHost.lean ====
/-
  What the region finds, in terms of the arguments, and the kernel's run with its results named.

  Over the extended reals a change of float format is the identity, so the region finds x, h_t, h_s themselves; the three
  weight arrays it finds are the five per-gate matrices side by side along the columns; the bias row it finds is the five
  per-gate biases end to end, laid out as one row of 2560 entries, whose entry `(0, n)` is entry `n` of the concatenation.
  With the previous module this gives the two result arrays as `CellSpec.hiddenArr` and `CellSpec.cellArr` of the arguments.
-/
import proofs.«138706_j21534966022556_2_alg».proof.Proof.CellArrays

set_option maxRecDepth 16384

noncomputable section

open scoped BigOperators

namespace Cert.KernelIdeal.CellValue

open Cert.KernelIdeal Cert.KernelIdeal.Gen Cert.KernelIdeal.CellRun Cert.CellSpec
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ) (ρ : Dev nD → PrngReg)

theorem found_x (c : Dev nD) : (V m c main_v8 : S8192x256.Idx → EReal) = m ((c : Thread nD τ).loc main_arg0) := by
  dsimp only [V]
  simp only [hostOps0, List.flatten_cons, List.flatten_nil, List.append_nil, List.cons_append, List.nil_append]
  after_results
  rfl
theorem found_ht (c : Dev nD) : (V m c main_v9 : S8192x512.Idx → EReal) = m ((c : Thread nD τ).loc main_arg1) := by
  dsimp only [V]
  simp only [hostOps0, List.flatten_cons, List.flatten_nil, List.append_nil, List.cons_append, List.nil_append]
  after_results
  rfl
theorem found_hs (c : Dev nD) : (V m c main_v10 : S8192x512.Idx → EReal) = m ((c : Thread nD τ).loc main_arg2) := by
  dsimp only [V]
  simp only [hostOps0, List.flatten_cons, List.flatten_nil, List.append_nil, List.cons_append, List.nil_append]
  after_results
  rfl
theorem found_U (c : Dev nD) : (V m c main_v1 : S256x2560.Idx → EReal) = concatenate S256x2560 1 [⟨S256x512, m ((c : Thread nD τ).loc main_arg5)⟩, ⟨S256x512, m ((c : Thread nD τ).loc main_arg9)⟩, ⟨S256x512, m ((c : Thread nD τ).loc main_arg13)⟩, ⟨S256x512, m ((c : Thread nD τ).loc main_arg17)⟩, ⟨S256x512, m ((c : Thread nD τ).loc main_arg21)⟩] concatenates_S256x512_S256x512_S256x512_S256x512_S256x512_S256x2560_d1 := by
  dsimp only [V]
  simp only [hostOps0, List.flatten_cons, List.flatten_nil, List.append_nil, List.cons_append, List.nil_append]
  after_results
  rfl
theorem found_Wt (c : Dev nD) : (V m c main_v3 : S512x2560.Idx → EReal) = concatenate S512x2560 1 [⟨S512x512, m ((c : Thread nD τ).loc main_arg6)⟩, ⟨S512x512, m ((c : Thread nD τ).loc main_arg10)⟩, ⟨S512x512, m ((c : Thread nD τ).loc main_arg14)⟩, ⟨S512x512, m ((c : Thread nD τ).loc main_arg18)⟩, ⟨S512x512, m ((c : Thread nD τ).loc main_arg22)⟩] concatenates_S512x512_S512x512_S512x512_S512x512_S512x512_S512x2560_d1 := by
  dsimp only [V]
  simp only [hostOps0, List.flatten_cons, List.flatten_nil, List.append_nil, List.cons_append, List.nil_append]
  after_results
  rfl
theorem found_Ws (c : Dev nD) : (V m c main_v5 : S512x2560.Idx → EReal) = concatenate S512x2560 1 [⟨S512x512, m ((c : Thread nD τ).loc main_arg7)⟩, ⟨S512x512, m ((c : Thread nD τ).loc main_arg11)⟩, ⟨S512x512, m ((c : Thread nD τ).loc main_arg15)⟩, ⟨S512x512, m ((c : Thread nD τ).loc main_arg19)⟩, ⟨S512x512, m ((c : Thread nD τ).loc main_arg23)⟩] concatenates_S512x512_S512x512_S512x512_S512x512_S512x512_S512x2560_d1 := by
  dsimp only [V]
  simp only [hostOps0, List.flatten_cons, List.flatten_nil, List.append_nil, List.cons_append, List.nil_append]
  after_results
  rfl
theorem found_b (c : Dev nD) : (V m c main_v7 : S1x2560.Idx → EReal) = shapeCast S1x2560 (concatenate S2560 0 [⟨S512, m ((c : Thread nD τ).loc main_arg8)⟩, ⟨S512, m ((c : Thread nD τ).loc main_arg12)⟩, ⟨S512, m ((c : Thread nD τ).loc main_arg16)⟩, ⟨S512, m ((c : Thread nD τ).loc main_arg20)⟩, ⟨S512, m ((c : Thread nD τ).loc main_arg24)⟩] concatenates_S512_S512_S512_S512_S512_S2560_d0) shapeCasts_S2560_S1x2560 := by
  dsimp only [V]
  simp only [hostOps0, List.flatten_cons, List.flatten_nil, List.append_nil, List.cons_append, List.nil_append]
  after_results
  rfl

/-- Entry `(0, n)` of the bias row is entry `n` of the concatenated biases. -/
theorem found_b_apply (c : Dev nD) (n : Fin 2560) :
    V m c main_v7 (ix2 (0 : Fin 1) n) = (concatenate S2560 0 [⟨S512, m ((c : Thread nD τ).loc main_arg8)⟩, ⟨S512, m ((c : Thread nD τ).loc main_arg12)⟩, ⟨S512, m ((c : Thread nD τ).loc main_arg16)⟩, ⟨S512, m ((c : Thread nD τ).loc main_arg20)⟩, ⟨S512, m ((c : Thread nD τ).loc main_arg24)⟩] concatenates_S512_S512_S512_S512_S512_S2560_d0) (ix1 n) := by
  rw [found_b]
  exact shapeCast_apply _ shapeCasts_S2560_S1x2560 (ix2 (0 : Fin 1) n) (ix1 n) (by
    rw [Shape.rowMajor_val_one, Shape.rowMajor_val_two]
    show n.val = 0 * 2560 + n.val
    omega)

/-- The bias row the region finds, as a function of the column. -/
theorem found_b_fun (c : Dev nD) :
    (fun n : Fin 2560 => V m c main_v7 (ix2 (0 : Fin 1) n)) = fun n => (concatenate S2560 0 [⟨S512, m ((c : Thread nD τ).loc main_arg8)⟩, ⟨S512, m ((c : Thread nD τ).loc main_arg12)⟩, ⟨S512, m ((c : Thread nD τ).loc main_arg16)⟩, ⟨S512, m ((c : Thread nD τ).loc main_arg20)⟩, ⟨S512, m ((c : Thread nD τ).loc main_arg24)⟩] concatenates_S512_S512_S512_S512_S512_S2560_d0) (ix1 n) :=
  funext (found_b_apply m c)

set_option maxHeartbeats 2000000 in
/-- THE KERNEL'S RUN: it terminates, the hidden-state and cell-state results are the whole-batch functions of the
    arguments, and the arguments are unchanged. -/
theorem run : θ_run defs (onTc (τ := τ) (main (F := Ideal))) ⟨m, fun _ => 0, ρ⟩ (fun r => ∀ c : Dev nD,
      r.2.mem ((c.tc : Thread nD τ).loc main_v11_0) = hiddenArr (m ((c : Thread nD τ).loc main_arg0)) (m ((c : Thread nD τ).loc main_arg1)) (m ((c : Thread nD τ).loc main_arg2)) (m ((c : Thread nD τ).loc main_arg3)) (m ((c : Thread nD τ).loc main_arg4))
      (concatenate S256x2560 1 [⟨S256x512, m ((c : Thread nD τ).loc main_arg5)⟩, ⟨S256x512, m ((c : Thread nD τ).loc main_arg9)⟩, ⟨S256x512, m ((c : Thread nD τ).loc main_arg13)⟩, ⟨S256x512, m ((c : Thread nD τ).loc main_arg17)⟩, ⟨S256x512, m ((c : Thread nD τ).loc main_arg21)⟩] concatenates_S256x512_S256x512_S256x512_S256x512_S256x512_S256x2560_d1)
      (concatenate S512x2560 1 [⟨S512x512, m ((c : Thread nD τ).loc main_arg6)⟩, ⟨S512x512, m ((c : Thread nD τ).loc main_arg10)⟩, ⟨S512x512, m ((c : Thread nD τ).loc main_arg14)⟩, ⟨S512x512, m ((c : Thread nD τ).loc main_arg18)⟩, ⟨S512x512, m ((c : Thread nD τ).loc main_arg22)⟩] concatenates_S512x512_S512x512_S512x512_S512x512_S512x512_S512x2560_d1)
      (concatenate S512x2560 1 [⟨S512x512, m ((c : Thread nD τ).loc main_arg7)⟩, ⟨S512x512, m ((c : Thread nD τ).loc main_arg11)⟩, ⟨S512x512, m ((c : Thread nD τ).loc main_arg15)⟩, ⟨S512x512, m ((c : Thread nD τ).loc main_arg19)⟩, ⟨S512x512, m ((c : Thread nD τ).loc main_arg23)⟩] concatenates_S512x512_S512x512_S512x512_S512x512_S512x512_S512x2560_d1)
      (fun n => (concatenate S2560 0 [⟨S512, m ((c : Thread nD τ).loc main_arg8)⟩, ⟨S512, m ((c : Thread nD τ).loc main_arg12)⟩, ⟨S512, m ((c : Thread nD τ).loc main_arg16)⟩, ⟨S512, m ((c : Thread nD τ).loc main_arg20)⟩, ⟨S512, m ((c : Thread nD τ).loc main_arg24)⟩] concatenates_S512_S512_S512_S512_S512_S2560_d0) (ix1 n))
      ∧ r.2.mem ((c.tc : Thread nD τ).loc main_v11_1) = cellArr (m ((c : Thread nD τ).loc main_arg0)) (m ((c : Thread nD τ).loc main_arg1)) (m ((c : Thread nD τ).loc main_arg2)) (m ((c : Thread nD τ).loc main_arg3)) (m ((c : Thread nD τ).loc main_arg4))
      (concatenate S256x2560 1 [⟨S256x512, m ((c : Thread nD τ).loc main_arg5)⟩, ⟨S256x512, m ((c : Thread nD τ).loc main_arg9)⟩, ⟨S256x512, m ((c : Thread nD τ).loc main_arg13)⟩, ⟨S256x512, m ((c : Thread nD τ).loc main_arg17)⟩, ⟨S256x512, m ((c : Thread nD τ).loc main_arg21)⟩] concatenates_S256x512_S256x512_S256x512_S256x512_S256x512_S256x2560_d1)
      (concatenate S512x2560 1 [⟨S512x512, m ((c : Thread nD τ).loc main_arg6)⟩, ⟨S512x512, m ((c : Thread nD τ).loc main_arg10)⟩, ⟨S512x512, m ((c : Thread nD τ).loc main_arg14)⟩, ⟨S512x512, m ((c : Thread nD τ).loc main_arg18)⟩, ⟨S512x512, m ((c : Thread nD τ).loc main_arg22)⟩] concatenates_S512x512_S512x512_S512x512_S512x512_S512x512_S512x2560_d1)
      (concatenate S512x2560 1 [⟨S512x512, m ((c : Thread nD τ).loc main_arg7)⟩, ⟨S512x512, m ((c : Thread nD τ).loc main_arg11)⟩, ⟨S512x512, m ((c : Thread nD τ).loc main_arg15)⟩, ⟨S512x512, m ((c : Thread nD τ).loc main_arg19)⟩, ⟨S512x512, m ((c : Thread nD τ).loc main_arg23)⟩] concatenates_S512x512_S512x512_S512x512_S512x512_S512x512_S512x2560_d1)
      (fun n => (concatenate S2560 0 [⟨S512, m ((c : Thread nD τ).loc main_arg8)⟩, ⟨S512, m ((c : Thread nD τ).loc main_arg12)⟩, ⟨S512, m ((c : Thread nD τ).loc main_arg16)⟩, ⟨S512, m ((c : Thread nD τ).loc main_arg20)⟩, ⟨S512, m ((c : Thread nD τ).loc main_arg24)⟩] concatenates_S512_S512_S512_S512_S512_S2560_d0) (ix1 n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨
    (((h c).1 9).trans (final_9 m c)).trans (by
      rw [found_x, found_ht, found_hs, V_arg3, V_arg4, found_U, found_Wt, found_Ws, found_b_fun]),
    (((h c).1 10).trans (final_10 m c)).trans (by
      rw [found_x, found_ht, found_hs, V_arg3, V_arg4, found_U, found_Wt, found_Ws, found_b_fun]),
    kept_post m (dats m) (A_eq m) r h c⟩) (run_main m ρ)

end Cert.KernelIdeal.CellValue

end
-- ==== Proof.CellRef.lean ====
/-
  The reference computes the same function.

  Its gate pre-activations are the three host matrix products of x, h_t, h_s with the concatenated weights, added in
  the same order, plus the concatenated bias repeated down the rows; its five gates are the same five slabs of 512
  columns; its logistic function is spelt  1 / (1 + exp(−g)),  which over the extended reals is the logistic function
  itself, the constant being exactly one. So its two results are `CellSpec.hiddenArr` and `CellSpec.cellArr` of its arguments.
-/
import proofs.«138706_j21534966022556_2_alg».proof.Proof.Gen.ReferenceIdeal.Read
import proofs.«138706_j21534966022556_2_alg».proof.Proof.CellSpec
import Idealize.ShloMosaic.Lib.IdealHost

set_option maxRecDepth 16384

noncomputable section

open scoped BigOperators

namespace Cert.ReferenceIdeal.CellRef

open Cert.ReferenceIdeal Cert.ReferenceIdeal.Gen Cert.ReferenceIdeal.Read Cert.CellSpec
open Idealize.ShloMosaic Idealize.ShloMosaic.ValueIdx

/-- `1 / (1 + exp(−g))` with the constant one is the logistic function. -/
theorem sigmoid_eq (g : EReal) :
    FloatOps.hostDivf (F := Ideal) (φ := .f32) (FloatOps.ofBits .f32 0x3F800000#32)
      (FloatOps.addf (FloatOps.ofBits .f32 0x3F800000#32) (FloatOps.hostUnary .exp (FloatOps.hostNegf g))) = Ideal.logistic g := by
  have h1 : FloatOps.ofBits (F := Ideal) .f32 0x3F800000#32 = (1 : EReal) := Ideal.ofBits_one_f32
  rw [h1]
  rfl

/-- The reference's gate pre-activations at an entry in row `r`, column `n`. -/
theorem ref_gate (x0 : (⟨S8192x256, .f32⟩ : BufTy).Contents (Elt Ideal)) (x1 : (⟨S8192x512, .f32⟩ : BufTy).Contents (Elt Ideal)) (x2 : (⟨S8192x512, .f32⟩ : BufTy).Contents (Elt Ideal)) (x3 : (⟨S8192x512, .f32⟩ : BufTy).Contents (Elt Ideal)) (x4 : (⟨S8192x512, .f32⟩ : BufTy).Contents (Elt Ideal)) (x5 : (⟨S256x512, .f32⟩ : BufTy).Contents (Elt Ideal)) (x6 : (⟨S512x512, .f32⟩ : BufTy).Contents (Elt Ideal)) (x7 : (⟨S512x512, .f32⟩ : BufTy).Contents (Elt Ideal)) (x8 : (⟨S512, .f32⟩ : BufTy).Contents (Elt Ideal)) (x9 : (⟨S256x512, .f32⟩ : BufTy).Contents (Elt Ideal)) (x10 : (⟨S512x512, .f32⟩ : BufTy).Contents (Elt Ideal)) (x11 : (⟨S512x512, .f32⟩ : BufTy).Contents (Elt Ideal)) (x12 : (⟨S512, .f32⟩ : BufTy).Contents (Elt Ideal)) (x13 : (⟨S256x512, .f32⟩ : BufTy).Contents (Elt Ideal)) (x14 : (⟨S512x512, .f32⟩ : BufTy).Contents (Elt Ideal)) (x15 : (⟨S512x512, .f32⟩ : BufTy).Contents (Elt Ideal)) (x16 : (⟨S512, .f32⟩ : BufTy).Contents (Elt Ideal)) (x17 : (⟨S256x512, .f32⟩ : BufTy).Contents (Elt Ideal)) (x18 : (⟨S512x512, .f32⟩ : BufTy).Contents (Elt Ideal)) (x19 : (⟨S512x512, .f32⟩ : BufTy).Contents (Elt Ideal)) (x20 : (⟨S512, .f32⟩ : BufTy).Contents (Elt Ideal)) (x21 : (⟨S256x512, .f32⟩ : BufTy).Contents (Elt Ideal)) (x22 : (⟨S512x512, .f32⟩ : BufTy).Contents (Elt Ideal)) (x23 : (⟨S512x512, .f32⟩ : BufTy).Contents (Elt Ideal)) (x24 : (⟨S512, .f32⟩ : BufTy).Contents (Elt Ideal)) (J : S8192x2560.Idx) (r : Fin 8192) (n : Fin 2560) (hr : J 0 = r) (hn : J 1 = n) :
    val_main_v11 (F := Ideal) x0 x1 x2 x5 x6 x7 x8 x9 x10 x11 x12 x13 x14 x15 x16 x17 x18 x19 x20 x21 x22 x23 x24 J
      = gate (fun k => x0 (ix2 r k)) (fun k => x1 (ix2 r k)) (fun k => x2 (ix2 r k)) (val_main_v0 (F := Ideal) x5 x9 x13 x17 x21) (val_main_v1 (F := Ideal) x6 x10 x14 x18 x22) (val_main_v2 (F := Ideal) x7 x11 x15 x19 x23) (fun n => val_main_v3 (F := Ideal) x8 x12 x16 x20 x24 (ix1 n)) n := by
  subst hr hn
  have l4 : ∀ k, lidx_main_v4 J k = ix2 (J 0) k := fun k => funext fun a => by match a with | ⟨0, _⟩ => rfl | ⟨1, _⟩ => rfl
  have r4 : ∀ k, ridx_main_v4 J k = ix2 k (J 1) := fun k => funext fun a => by match a with | ⟨0, _⟩ => rfl | ⟨1, _⟩ => rfl
  have l5 : ∀ k, lidx_main_v5 J k = ix2 (J 0) k := fun k => funext fun a => by match a with | ⟨0, _⟩ => rfl | ⟨1, _⟩ => rfl
  have r5 : ∀ k, ridx_main_v5 J k = ix2 k (J 1) := fun k => funext fun a => by match a with | ⟨0, _⟩ => rfl | ⟨1, _⟩ => rfl
  have l7 : ∀ k, lidx_main_v7 J k = ix2 (J 0) k := fun k => funext fun a => by match a with | ⟨0, _⟩ => rfl | ⟨1, _⟩ => rfl
  have r7 : ∀ k, ridx_main_v7 J k = ix2 k (J 1) := fun k => funext fun a => by match a with | ⟨0, _⟩ => rfl | ⟨1, _⟩ => rfl
  have b9 : idx_main_v9 (idx_main_v10 J) = ix1 (J 1) := funext fun a => by match a with | ⟨0, _⟩ => rfl
  rw [val_main_v11_apply, val_main_v8_apply, val_main_v6_apply, val_main_v4_apply, val_main_v5_apply, val_main_v7_apply, val_main_v10_apply, val_main_v9_apply]
  simp only [l4, r4, l5, r5, l7, r7, b9]
  rfl

/-- The reference's second result: the new cell states. -/
theorem ref_cell (x0 : (⟨S8192x256, .f32⟩ : BufTy).Contents (Elt Ideal)) (x1 : (⟨S8192x512, .f32⟩ : BufTy).Contents (Elt Ideal)) (x2 : (⟨S8192x512, .f32⟩ : BufTy).Contents (Elt Ideal)) (x3 : (⟨S8192x512, .f32⟩ : BufTy).Contents (Elt Ideal)) (x4 : (⟨S8192x512, .f32⟩ : BufTy).Contents (Elt Ideal)) (x5 : (⟨S256x512, .f32⟩ : BufTy).Contents (Elt Ideal)) (x6 : (⟨S512x512, .f32⟩ : BufTy).Contents (Elt Ideal)) (x7 : (⟨S512x512, .f32⟩ : BufTy).Contents (Elt Ideal)) (x8 : (⟨S512, .f32⟩ : BufTy).Contents (Elt Ideal)) (x9 : (⟨S256x512, .f32⟩ : BufTy).Contents (Elt Ideal)) (x10 : (⟨S512x512, .f32⟩ : BufTy).Contents (Elt Ideal)) (x11 : (⟨S512x512, .f32⟩ : BufTy).Contents (Elt Ideal)) (x12 : (⟨S512, .f32⟩ : BufTy).Contents (Elt Ideal)) (x13 : (⟨S256x512, .f32⟩ : BufTy).Contents (Elt Ideal)) (x14 : (⟨S512x512, .f32⟩ : BufTy).Contents (Elt Ideal)) (x15 : (⟨S512x512, .f32⟩ : BufTy).Contents (Elt Ideal)) (x16 : (⟨S512, .f32⟩ : BufTy).Contents (Elt Ideal)) (x17 : (⟨S256x512, .f32⟩ : BufTy).Contents (Elt Ideal)) (x18 : (⟨S512x512, .f32⟩ : BufTy).Contents (Elt Ideal)) (x19 : (⟨S512x512, .f32⟩ : BufTy).Contents (Elt Ideal)) (x20 : (⟨S512, .f32⟩ : BufTy).Contents (Elt Ideal)) (x21 : (⟨S256x512, .f32⟩ : BufTy).Contents (Elt Ideal)) (x22 : (⟨S512x512, .f32⟩ : BufTy).Contents (Elt Ideal)) (x23 : (⟨S512x512, .f32⟩ : BufTy).Contents (Elt Ideal)) (x24 : (⟨S512, .f32⟩ : BufTy).Contents (Elt Ideal)) :
    val_main_v46 (F := Ideal) x0 x1 x2 x3 x4 x5 x6 x7 x8 x9 x10 x11 x12 x13 x14 x15 x16 x17 x18 x19 x20 x21 x22 x23 x24 = cellArr x0 x1 x2 x3 x4 (val_main_v0 (F := Ideal) x5 x9 x13 x17 x21) (val_main_v1 (F := Ideal) x6 x10 x14 x18 x22) (val_main_v2 (F := Ideal) x7 x11 x15 x19 x23) (fun n => val_main_v3 (F := Ideal) x8 x12 x16 x20 x24 (ix1 n)) := by
  funext I
  have g12 := ref_gate x0 x1 x2 x3 x4 x5 x6 x7 x8 x9 x10 x11 x12 x13 x14 x15 x16 x17 x18 x19 x20 x21 x22 x23 x24 (idx_main_v12 I) (I 0) (slabCol 0 (by omega) (I 1)) rfl (Fin.ext (Nat.zero_add _).symm)
  have g13 := ref_gate x0 x1 x2 x3 x4 x5 x6 x7 x8 x9 x10 x11 x12 x13 x14 x15 x16 x17 x18 x19 x20 x21 x22 x23 x24 (idx_main_v13 I) (I 0) (slabCol 512 (by omega) (I 1)) rfl rfl
  have g14 := ref_gate x0 x1 x2 x3 x4 x5 x6 x7 x8 x9 x10 x11 x12 x13 x14 x15 x16 x17 x18 x19 x20 x21 x22 x23 x24 (idx_main_v14 I) (I 0) (slabCol 1024 (by omega) (I 1)) rfl rfl
  have g16 := ref_gate x0 x1 x2 x3 x4 x5 x6 x7 x8 x9 x10 x11 x12 x13 x14 x15 x16 x17 x18 x19 x20 x21 x22 x23 x24 (idx_main_v16 I) (I 0) (slabCol 2048 (by omega) (I 1)) rfl rfl
  simp only [val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_cst_apply, val_main_cst_0_apply, val_main_cst_1_apply, val_main_cst_2_apply, val_main_cst_3_apply, val_main_cst_4_apply, val_main_cst_5_apply, val_main_cst_6_apply, g12, g13, g14, g16, sigmoid_eq]
  rfl

/-- The reference's first result: the new hidden states. -/
theorem ref_hidden (x0 : (⟨S8192x256, .f32⟩ : BufTy).Contents (Elt Ideal)) (x1 : (⟨S8192x512, .f32⟩ : BufTy).Contents (Elt Ideal)) (x2 : (⟨S8192x512, .f32⟩ : BufTy).Contents (Elt Ideal)) (x3 : (⟨S8192x512, .f32⟩ : BufTy).Contents (Elt Ideal)) (x4 : (⟨S8192x512, .f32⟩ : BufTy).Contents (Elt Ideal)) (x5 : (⟨S256x512, .f32⟩ : BufTy).Contents (Elt Ideal)) (x6 : (⟨S512x512, .f32⟩ : BufTy).Contents (Elt Ideal)) (x7 : (⟨S512x512, .f32⟩ : BufTy).Contents (Elt Ideal)) (x8 : (⟨S512, .f32⟩ : BufTy).Contents (Elt Ideal)) (x9 : (⟨S256x512, .f32⟩ : BufTy).Contents (Elt Ideal)) (x10 : (⟨S512x512, .f32⟩ : BufTy).Contents (Elt Ideal)) (x11 : (⟨S512x512, .f32⟩ : BufTy).Contents (Elt Ideal)) (x12 : (⟨S512, .f32⟩ : BufTy).Contents (Elt Ideal)) (x13 : (⟨S256x512, .f32⟩ : BufTy).Contents (Elt Ideal)) (x14 : (⟨S512x512, .f32⟩ : BufTy).Contents (Elt Ideal)) (x15 : (⟨S512x512, .f32⟩ : BufTy).Contents (Elt Ideal)) (x16 : (⟨S512, .f32⟩ : BufTy).Contents (Elt Ideal)) (x17 : (⟨S256x512, .f32⟩ : BufTy).Contents (Elt Ideal)) (x18 : (⟨S512x512, .f32⟩ : BufTy).Contents (Elt Ideal)) (x19 : (⟨S512x512, .f32⟩ : BufTy).Contents (Elt Ideal)) (x20 : (⟨S512, .f32⟩ : BufTy).Contents (Elt Ideal)) (x21 : (⟨S256x512, .f32⟩ : BufTy).Contents (Elt Ideal)) (x22 : (⟨S512x512, .f32⟩ : BufTy).Contents (Elt Ideal)) (x23 : (⟨S512x512, .f32⟩ : BufTy).Contents (Elt Ideal)) (x24 : (⟨S512, .f32⟩ : BufTy).Contents (Elt Ideal)) :
    val_main_v48 (F := Ideal) x0 x1 x2 x3 x4 x5 x6 x7 x8 x9 x10 x11 x12 x13 x14 x15 x16 x17 x18 x19 x20 x21 x22 x23 x24 = hiddenArr x0 x1 x2 x3 x4 (val_main_v0 (F := Ideal) x5 x9 x13 x17 x21) (val_main_v1 (F := Ideal) x6 x10 x14 x18 x22) (val_main_v2 (F := Ideal) x7 x11 x15 x19 x23) (fun n => val_main_v3 (F := Ideal) x8 x12 x16 x20 x24 (ix1 n)) := by
  funext I
  have g15 := ref_gate x0 x1 x2 x3 x4 x5 x6 x7 x8 x9 x10 x11 x12 x13 x14 x15 x16 x17 x18 x19 x20 x21 x22 x23 x24 (idx_main_v15 I) (I 0) (slabCol 1536 (by omega) (I 1)) rfl rfl
  have hc := congrFun (ref_cell x0 x1 x2 x3 x4 x5 x6 x7 x8 x9 x10 x11 x12 x13 x14 x15 x16 x17 x18 x19 x20 x21 x22 x23 x24) I
  rw [val_main_v48_apply, val_main_v47_apply, hc]
  simp only [val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_cst_apply, val_main_cst_0_apply, val_main_cst_1_apply, val_main_cst_2_apply, val_main_cst_3_apply, val_main_cst_4_apply, val_main_cst_5_apply, val_main_cst_6_apply, g15, sigmoid_eq]
  rfl

end Cert.ReferenceIdeal.CellRef

end
-- ==== Proof.lean ====
/-
  A fused two-state LSTM cell against its plain reference, over the extended reals.

  Both programs compute, for a batch of 8192 rows,
      gates = (x·U + h_t·W_t) + h_s·W_s + b        (U, W_t, W_s, b: the five per-gate parameters concatenated),
      c'    = (σ(g_i)·tanh(g_c) + σ(g_ft)·c_t) + σ(g_fs)·c_s,      h' = σ(g_o)·tanh(c'),
  the five gates being consecutive slabs of 512 columns of `gates`. The kernel works on blocks of 1024 rows and feeds
  its matrix products operands in a narrower float format; the reference works on the whole arrays and spells the
  logistic function as 1 / (1 + exp(−g)). Over the extended reals a change of format is the identity, a matrix product
  into a zero accumulator is the plain sum of products, the spelt-out quotient is the logistic function, and a block of
  rows of a row-wise function is the function of the block of rows; the sums are associated alike in both programs. So the
  two programs compute one function (`CellSpec.hiddenArr`, `CellSpec.cellArr`), and no finiteness of the inputs is used.

  The frames: the kernel's run (at the word level and over the extended reals alike) terminates and keeps its arguments
  because the host lines before the region write only their own results and the pipeline only reads the argument arrays
  it stages; the reference's run is a straight line of host operations. The idealization rewrote nothing.
-/
import proofs.«138706_j21534966022556_2_alg».proof.Defs
import proofs.«138706_j21534966022556_2_alg».proof.Proof.Gen.Kernel
import proofs.«138706_j21534966022556_2_alg».proof.Proof.Gen.KernelIdeal
import proofs.«138706_j21534966022556_2_alg».proof.Proof.Gen.ReferenceIdeal
import proofs.«138706_j21534966022556_2_alg».proof.Proof.Gen.ReferenceIdeal.Read
import proofs.«138706_j21534966022556_2_alg».proof.Proof.Gen.Pre_finite_inputs
import proofs.«138706_j21534966022556_2_alg».proof.Proof.CellRunBits
import proofs.«138706_j21534966022556_2_alg».proof.Proof.CellHost
import proofs.«138706_j21534966022556_2_alg».proof.Proof.CellRef
import Idealize.ShloMosaic.Adequacy
import Idealize.ShloMosaic.Init

set_option maxRecDepth 16384

noncomputable section

namespace Cert.Proof

open Idealize.ShloMosaic Idealize.SL.Sem

/-- The word-level kernel runs and keeps its arguments. -/
theorem frame_kernel : Cert.frame_Kernel := fun m ρ _ => Cert.Kernel.CellRun.kept m ρ

/-- So does the kernel over the extended reals. -/
theorem frame_kernelIdeal : Cert.frame_KernelIdeal := fun m ρ _ => Cert.KernelIdeal.CellRun.kept m ρ

/-- The reference is a straight line of host operations: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

set_option maxHeartbeats 4000000 in
/-- From memories agreeing on the arguments, both programs end with the new hidden states and the new cell states of
    `CellSpec` in their results, and their arguments unchanged. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18, a19, a20, a21, a22, a23, a24⟩ := hagree c
    refine (Cert.ReferenceIdeal.Read.val_main_v48_eq m' c).trans ?_
    rw [a0, a1, a2, a3, a4, a5, a6, a7, a8, a9, a10, a11, a12, a13, a14, a15, a16, a17, a18, a19, a20, a21, a22, a23, a24]
    refine (Cert.ReferenceIdeal.CellRef.ref_hidden _ _ _ _ _ _ _ _ _ _ _ _ _ _ _ _ _ _ _ _ _ _ _ _ _).trans ?_
    rfl
  · obtain ⟨a0, a1, a2, a3, a4, a5, a6, a7, a8, a9, a10, a11, a12, a13, a14, a15, a16, a17, a18, a19, a20, a21, a22, a23, a24⟩ := hagree c
    refine (Cert.ReferenceIdeal.Read.val_main_v46_eq m' c).trans ?_
    rw [a0, a1, a2, a3, a4, a5, a6, a7, a8, a9, a10, a11, a12, a13, a14, a15, a16, a17, a18, a19, a20, a21, a22, a23, a24]
    refine (Cert.ReferenceIdeal.CellRef.ref_cell _ _ _ _ _ _ _ _ _ _ _ _ _ _ _ _ _ _ _ _ _ _ _ _ _).trans ?_
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
